-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S128x32x32 : Shape := ⟨3, ![128, 32, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S128x32x32 : S_.BroadcastsInDim S128x32x32 (![] : Fin 0 → Fin S128x32x32.rank)
  reducesTo_S128x32x32_S_d0_1_2 : S128x32x32.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S128x32x32 1) : IVec S_ 1 :=
  let main_c_5 : IVec S_ 1 := constantI S_ 1 1#1
  let main_v17 : IVec S_ 1 := (fun x v => Host.reduce IntOp.andi x v reducesTo_S128x32x32_S_d0_1_2 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S4096x64 .f32) (main_arg3 : FVec F S4096x64 .f32) (main_arg4 : FVec F S128x32x32 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S128x32x32 .f32 := Host.absf main_arg4
  let main_cst_4 : FVec F S_ .f32 := constant S_ .f32 0x7F800000#32
  let main_v15 : FVec F S128x32x32 .f32 := broadcastInDim S128x32x32 ![] bcast_S_S128x32x32 main_cst_4
  let main_v16 : IVec S128x32x32 1 := cmpf .olt main_v14 main_v15
  fn_part1 (F := F) main_arg5 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S128x32x32 : Shape := ⟨3, ![128, 32, 32]⟩
abbrev S4096 : Shape := ⟨1, ![4096]⟩
abbrev S32x4096 : Shape := ⟨2, ![32, 4096]⟩
abbrev S32x64 : Shape := ⟨2, ![32, 64]⟩
abbrev S1x32x32 : Shape := ⟨3, ![1, 32, 32]⟩
abbrev S32x64x64 : Shape := ⟨3, ![32, 64, 64]⟩
abbrev S32x64x1 : Shape := ⟨3, ![32, 64, 1]⟩
abbrev S32x32 : Shape := ⟨2, ![32, 32]⟩
abbrev S8192x4096 : Shape := ⟨2, ![8192, 4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 11
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S128x32x32, .f32⟩
  | .hbm, ⟨5, _⟩ => ⟨S4096, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S32x4096, .i32⟩
  | .local _ .vmem, ⟨1, _⟩ => ⟨S32x4096, .i32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S1x32x32, .f32⟩
  | .local _ .vmem, ⟨7, _⟩ => ⟨S1x32x32, .f32⟩
  | .local _ .vmem, ⟨8, _⟩ => ⟨S32x4096, .bf16⟩
  | .local _ .vmem, ⟨9, _⟩ => ⟨S32x4096, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S32x4096_S32x4096_0_0 : ∀ a, (![0, 0] : Fin 2 → Nat) a + S32x4096.size a ≤ S32x4096.size a
  h_S32x4096 : 0 < S32x4096.numel
  inb_S32x64_S32x64_0_0 : ∀ a, (![0, 0] : Fin 2 → Nat) a + S32x64.size a ≤ S32x64.size a
  h_S32x64 : 0 < S32x64.numel
  shapeCasts_S32x4096_S32x64x64 : S32x4096.ShapeCasts S32x64x64
  shapeCasts_S32x64_S32x64x1 : S32x64.ShapeCasts S32x64x1
  broadcasts_S32x64x1_S32x64x64 : S32x64x1.Broadcasts S32x64x64
  shapeCasts_S32x64x64_S32x4096 : S32x64x64.ShapeCasts S32x4096
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  bitsLt_bf16_f32 : FTy.bits .bf16 < FTy.bits .f32
  packedbf16_S32x4096_S32x4096_0_0 : (Rect.unit (s := S32x4096) ![0, 0] S32x4096.size inb_S32x4096_S32x4096_0_0).PackedRows (EltTy.packing .bf16)
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S32x32_S32x4096_S32x4096_1_0_0_1_n_n_wf : DotDims.WF S32x32 S32x4096 S32x4096 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S4096x4096.size a
  hwx0_0 : ∀ i : grid0.Coords, EltTy.bits .i32 = 32 ∨ (Rect.block (s := S4096x4096) S32x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S4096x64.size a
  hwx0_1 : ∀ i : grid0.Coords, EltTy.bits .f32 = 32 ∨ (Rect.block (s := S4096x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S4096x64.size a
  hwx0_2 : ∀ i : grid0.Coords, EltTy.bits .f32 = 32 ∨ (Rect.block (s := S4096x64) S32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32.size a ≤ S128x32x32.size a
  hwx0_3 : ∀ i : grid0.Coords, EltTy.bits .f32 = 32 ∨ (Rect.block (s := S128x32x32) S1x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x4096.size a ≤ S4096x4096.size a
  hwx0_4 : ∀ i : grid0.Coords, EltTy.bits .bf16 = 32 ∨ (Rect.block (s := S4096x4096) S32x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg1) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x32x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S128x32x32 : Shape := ⟨3, ![128, 32, 32]⟩
abbrev S4096 : Shape := ⟨1, ![4096]⟩
abbrev S4096x64x64 : Shape := ⟨3, ![4096, 64, 64]⟩
abbrev S4096x64x1 : Shape := ⟨3, ![4096, 64, 1]⟩
abbrev S128x32x4096 : Shape := ⟨3, ![128, 32, 4096]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S128x32x32, .f32⟩
  | .hbm, ⟨5, _⟩ => ⟨S4096, .f32⟩
  | .hbm, ⟨6, _⟩ => ⟨S4096x4096, .f32⟩
  | .hbm, ⟨7, _⟩ => ⟨S4096x64x64, .f32⟩
  | .hbm, ⟨8, _⟩ => ⟨S4096x64x1, .f32⟩
  | .hbm, ⟨9, _⟩ => ⟨S4096x64x64, .f32⟩
  | .hbm, ⟨10, _⟩ => ⟨S4096x64x64, .f32⟩
  | .hbm, ⟨11, _⟩ => ⟨S4096x64x1, .f32⟩
  | .hbm, ⟨12, _⟩ => ⟨S4096x64x64, .f32⟩
  | .hbm, ⟨13, _⟩ => ⟨S4096x64x64, .f32⟩
  | .hbm, ⟨14, _⟩ => ⟨S4096x4096, .f32⟩
  | .hbm, ⟨15, _⟩ => ⟨S128x32x4096, .f32⟩
  | .hbm, ⟨16, _⟩ => ⟨S128x32x4096, .f32⟩
  | .hbm, ⟨17, _⟩ => ⟨S4096x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  shapeCasts_S4096x4096_S128x32x4096 : S4096x4096.ShapeCasts S128x32x4096
  shapeCasts_S128x32x4096_S4096x4096 : S128x32x4096.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S128x32x32_S128x32x4096_S128x32x4096_2_1_1_2_0_0_wf : DotDims.WF S128x32x32 S128x32x4096 S128x32x4096 [2] [1] [1] [2] [0] [0]
  dot_S4x2048x4096_S4096x4096_S4x2048x4096_2_1_01_0_n_n_wf : DotDims.WF S4x2048x4096 S4096x4096 S4x2048x4096 [2] [1] [0, 1] [0] [] []

variable [Facts₀]

def dot_S128x32x32_S128x32x4096_S128x32x4096_2_1_1_2_0_0 : DotDims S128x32x32 S128x32x4096 S128x32x4096 where
  lhsContracting := [2]
  rhsContracting := [1]
  lhsNonContracting := [1]
  rhsNonContracting := [2]
  lhsBatch := [0]
  rhsBatch := [0]
  wf := dot_S128x32x32_S128x32x4096_S128x32x4096_2_1_1_2_0_0_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Kernel.Data.lean ====
/-
  The proof data of the two kernel regions, stated once for any float instance.

  Region 0 (the dequantise-and-project kernel, 128 grid points, one per block of 32 rows): at point `t` every input
  window's staging buffer holds its block of the array as the region found it, and the output window's buffer holds the
  body's one stored value — the 32×32 projection times the dequantised 32×4096 block — as a function of those blocks.
  Nothing is carried from point to point.

  Region 1 (the blocked matrix product, grid 16×4×4, the last axis the contraction's blocks): the accumulator scratch
  is carried between points. After point `n` it holds `acc1 n`: at a point whose last coordinate is 0 the product of the
  point's blocks added to the zero fill, otherwise added to what the point before left. The output window is stored only
  at the points whose last coordinate is 3, where it is the accumulator plus the bias row spread over the rows.
-/
import proofs.«123255_j39943195853111_1_alg».proof.Proof.Gen.Kernel.Launch
import proofs.«123255_j39943195853111_1_alg».proof.Proof.Gen.Kernel.Skeleton
import proofs.«123255_j39943195853111_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: the parameter both regions' data are stated at
variable (V : (c : Dev nD) → (b : Ref sig .tc) → Buf (Elt F) ((c : Thread nD τ).loc b))

/-! ## Region 0 -/

/-- Window `w`'s block of its array at point `t`, the array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data on core `c`: the arrays as found; after the body each input buffer still at its block and the
    output buffer at the body's stored value of the four input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 0 t) (iblk0 V c 1 t) (iblk0 V c 2 t) (iblk0 V c 3 t) := by dsimp only [dat0]

/-! ## Region 1 -/

/-- Window `w`'s block of its array at point `t`, the array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch after the body at position `n` of the grid's row-major order: the last grid coordinate is
    `n % 4`; where it is 0 the body first fills the scratch with zeros, everywhere it then adds the product of the
    point's two blocks to what the scratch holds. -/
def acc1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a point whose last coordinate is 0: the product added to the zero fill. -/
theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At any other point: the product added to what the point before left. -/
theorem acc1_next (c : Dev nD) (t : Fin cfg1.N) (h : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator scratch, a whole scoped buffer of the kernel's own. -/
abbrev scM1 : Memref sig .tc .vmem S512x1024 .f32 := Memref.whole cc1_scratch0

/-- The core's scoped buffers that region 1 never touches (region 0's staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- Region 1's invariant before position `n`: before the first point what the launch hands over (every scoped buffer that
    is no staging buffer of this region at anything, the generator register at some state); afterwards the same with the
    accumulator scratch at what the point before left in it. -/
def PhiS1 (c : Dev nD) : (n : ℕ) → n ≤ cfg1.N → sProp 𝕄
  | 0, _ => Pipeline.ΦA spec1 c
  | n + 1, hn => iprop(others1 (F := F) c ∗ owns (c : Thread nD τ) scM1 fullShare (acc1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1 fullShare (acc1 V c n hn) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1 fullShare (acc1 V c (n - 1) (by omega)) ∗ (∃ r, prngReg c r)) := by
  cases n with
  | zero => exact absurd rfl hz
  | succ n => rfl

/-- Region 1's proof data on core `c`: the arrays as found; after the body each input buffer still at its block; the
    output buffer, where it is stored (the last coordinate 3), at the accumulator plus the bias row spread over the rows
    (at the other points the window is idle and the entry is not consulted); the invariant carries the accumulator;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.Kernel.Region0.lean ====
/-
  Region 0's body obligation: the dequantise-and-project kernel at one grid point.

  The body reads its four input staging buffers whole, reads the output buffer, and stores one value — the payload
  `k0_pay1` of the four values read — over the whole output buffer. Every access is through the rectangle of the
  buffer's own extents at offset zero, so a load returns the buffer's contents and the single store leaves exactly its
  payload. At point `t` each input buffer holds its block of the array as the region found it, whether or not the
  block was fetched at `t`; so the output buffer ends at `k0_pay1` of the four blocks, which is what the region's proof
  data records. The invariant and the owed transfers pass through the body untouched.
-/
import proofs.«123255_j39943195853111_1_alg».proof.Proof.Kernel.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers at a point -/

/-- Input window 0's current staging buffer holds its block at every point: where the block was fetched, by the
    fetch; where it was not, the block index has not moved since the point before, and the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The same for input window 1, -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- input window 2, -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- and input window 3. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's accesses: each through the whole buffer at offset zero -/

/-- The offsets of a rank-2 access at the origin are all zero, -/
theorem region0_hz2 : (![0, 0] : Fin 2 → Nat) = fun _ => 0 := funext fun a => by fin_cases a <;> rfl
/-- and of a rank-3 one. -/
theorem region0_hz3 : (![0, 0, 0] : Fin 3 → Nat) = fun _ => 0 := funext fun a => by fin_cases a <;> rfl

/-- The rectangle of the output buffer's one store: the whole 32×4096 buffer. -/
abbrev r0_out : Rect S32x4096 := Rect.unit (s := S32x4096) ![0, 0] S32x4096.size inb_S32x4096_S32x4096_0_0

/-- That one store covers the buffer: every index lies in the whole-buffer rectangle. -/
theorem cover0_4 (p : FVec F S32x4096 .bf16) (y : S32x4096.Idx) :
    ∃ pc ∈ ([⟨r0_out, p⟩] : List (View.Piece (Elt F) S32x4096 .bf16)), y ∈ pc.1.set :=
  ⟨_, List.mem_singleton_self _, View.mem_set_unit_zero region0_hz2 inb_S32x4096_S32x4096_0_0 y⟩

/-! ## The body's triple -/

set_option maxHeartbeats 1000000 in
/-- The body on whole staging memrefs, the four inputs' at contents `x0 … x3` and the output's at anything, runs to the
    continuation holding the inputs' as they were and the output's at `k0_pay1 x0 x1 x2 x3`: each load through the
    whole-buffer rectangle reads the contents, and the one covering store leaves its payload. -/
theorem sound_kernel0 (c : Dev nD) (E : Set ℕ) (i : grid0.Coords)
    (arg1 : Memref sig .tc .vmem S32x4096 .i32) (harg1 : arg1.IsWhole)
    (arg2 : Memref sig .tc .vmem S32x64 .f32) (harg2 : arg2.IsWhole)
    (arg3 : Memref sig .tc .vmem S32x64 .f32) (harg3 : arg3.IsWhole)
    (arg4 : Memref sig .tc .vmem S1x32x32 .f32) (harg4 : arg4.IsWhole)
    (arg5 : Memref sig .tc .vmem S32x4096 .bf16) (harg5 : arg5.IsWhole)
    (x0 : Vec F S32x4096 .i32) (x1 : Vec F S32x64 .f32) (x2 : Vec F S32x64 .f32) (x3 : Vec F S1x32x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E
          (cc0__dequant_proj_kernel i arg1 harg1 arg2 harg2 arg3 harg3 arg4 harg4 arg5 harg5) K := by
  simp only [cc0__dequant_proj_kernel_eq_skeleton]; unfold cc0__dequant_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so the buffer reads as the store's payload;
  rw [View.read_writes_eq_canon _ _ _ (cover0_4 _), View.canon_unit_zero region0_hz2]
  -- and each of the payload's four arguments, a load through the whole-buffer rectangle, is the buffer's contents
  have e0 : View.readAt (Elt F) arg1.view (Rect.unit (s := S32x4096) ![0, 0] S32x4096.size inb_S32x4096_S32x4096_0_0).toLoadRect f0
      = View.read (Elt F) arg1.view f0 := (View.readAt_eq_ld _ _ _).trans (View.ld_unit_zero region0_hz2 _ _)
  have e1 : View.readAt (Elt F) arg2.view (Rect.unit (s := S32x64) ![0, 0] S32x64.size inb_S32x64_S32x64_0_0).toLoadRect f1
      = View.read (Elt F) arg2.view f1 := (View.readAt_eq_ld _ _ _).trans (View.ld_unit_zero region0_hz2 _ _)
  have e2 : View.readAt (Elt F) arg3.view (Rect.unit (s := S32x64) ![0, 0] S32x64.size inb_S32x64_S32x64_0_0).toLoadRect f2
      = View.read (Elt F) arg3.view f2 := (View.readAt_eq_ld _ _ _).trans (View.ld_unit_zero region0_hz2 _ _)
  have e3 : View.readAt (Elt F) arg4.view (Rect.unit (s := S1x32x32) ![0, 0, 0] S1x32x32.size inb_S1x32x32_S1x32x32_0_0_0).toLoadRect f3
      = View.read (Elt F) arg4.view f3 := (View.readAt_eq_ld _ _ _).trans (View.ld_unit_zero region0_hz3 _ _)
  rw [e0, e1, e2, e3]

/-! ## The body obligation, at a generic point -/

/-- What the body is handed at point `t`: the invariant, the owed transfers, and each window's current staging memref,
    whole, at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back: the same, each memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. The input memrefs hold their blocks (`before0_0 … before0_3`), so the body's triple applies at
    those four blocks and leaves the output memref at `k0_pay1` of them, the proof data's entry for window 4; the
    invariant and the owed transfers do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- Region 0's body obligation: the windows conjoined one by one, it is `sound_body0` at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.Conds.lean ====
/-
  Region 1 (the blocked matrix product on the grid 16×4×4), what its three control cases share.

  The body branches twice on the last grid coordinate k: it clears the accumulator where k = 0 and adds the bias and
  stores the output block where k = 3. In row-major order position n has k = n % 4, so both conditions are decided
  once over the 256 points. With them: where the output window is idle and not written back (k ≠ 3), that each input
  window's buffer holds its block at every point (the bias block, fetched only where k = 0, has not moved in between),
  and the launch invariant with the accumulator as an owned whole buffer.
-/
import proofs.«123255_j39943195853111_1_alg».proof.Proof.Kernel.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form over the grid -/

/-- The first branch's condition: the last coordinate is 0. -/
abbrev cond1_0 (i : grid1.Coords) : Prop :=
  (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition: the last coordinate is 3. -/
abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Away from the last block of the contraction the output window is idle -/
theorem idleAt1_3 : ∀ t : Fin cfg1.N, ¬cond1_1 (grid1.coords t) → cfg1.idle 3 (grid1.coords t) = true := by decide +kernel
/-- and is not written back; -/
theorem noFlush1_3 : ∀ t : Fin cfg1.N, ¬cond1_1 (grid1.coords t) → (cfg1.win 3).flush t = false := by decide +kernel
/-- at the last block it is live. -/
theorem liveAt1_3 : ∀ t : Fin cfg1.N, cond1_1 (grid1.coords t) → cfg1.idle 3 (grid1.coords t) = false := by decide +kernel

/-! ## The inputs' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias block is fetched only where the last coordinate is 0; in between its index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The launch invariant, the accumulator as an owned buffer -/

theorem PhiA1_eq (c : Dev nD) :
    (Pipeline.ΦA spec1 c : sProp 𝕄)
      = iprop(iprop(others1 (F := F) c ∗ (∃ d, owns (c : Thread nD τ) scM1 fullShare d)) ∗ (∃ r, prngReg c r)) := by
  unfold Pipeline.ΦA; rw [scopedRest1_eq]; unfold others1; simp only [scM1, owns_whole]
  refine BI.equiv_iff.mp ⟨?_, ?_⟩
  · show (_ : sProp 𝕄) ⊢ (_ : sProp 𝕄)
    iintro ⟨⟨H0, H1, H2, H3, H4, H5, H6, H7, H8, H9, HS⟩, Hg⟩
    isplitr [Hg]
    · isplitr [HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · iexact HS
    · iexact Hg
  · show (_ : sProp 𝕄) ⊢ (_ : sProp 𝕄)
    iintro ⟨⟨⟨H0, H1, H2, H3, H4, H5, H6, H7, H8, H9⟩, HS⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    · iexact Hg

/-- The offsets of a store or load of a whole block, all zero. -/
theorem hz2 : (![0, 0] : Fin 2 → Nat) = fun _ => 0 := funext fun a => by fin_cases a <;> rfl

/-- A buffer read back after a store of a whole block, the last of its stores, is that store's payload, whatever the
    buffer held and whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

end Cert.Kernel.Hand

end
-- ==== Proof.Kernel.Region1.Cases.lean ====
/-
  Region 1's body in its three control cases, each as one triple on whole buffers: the two blocks at `x0`, `x1`, the
  bias block at `x2`, the output buffer, the accumulator.

  A (last coordinate 0): the accumulator, whatever it held, is cleared and then holds the blocks' product added to
  the zero fill; the output buffer is not touched.
  B (last coordinate 1 or 2): the accumulator at `xs` ends at `xs` plus the product; the output buffer is not touched.
  C (last coordinate 3): as B, and the output buffer, whatever it held, ends at the new accumulator plus the bias row.
-/
import proofs.«123255_j39943195853111_1_alg».proof.Proof.Kernel.Region1.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem run1_A (c : Dev nD) (E : Set ℕ) (i : grid1.Coords)
    (arg3 : Memref sig .tc .vmem S512x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : cond1_0 i) (hc1 : ¬cond1_1 i)
    (x0 : Vec F S512x1024 .f32) (x1 : Vec F S1024x1024 .bf16) (x2 : Vec F S1x1024 .f32) (x3 : Vec F S512x1024 .f32)
    (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_whole _ _ hz2]
  sl_unfold_run_names
  rw [View.readCov_unit_zero (S := S512x1024) _ hz2]
  simp only [View.readAt_eq_ld, View.ld_unit_zero (S := S512x1024) hz2, View.ld_unit_zero (S := S1024x1024) hz2]

set_option maxHeartbeats 1000000 in
theorem run1_B (c : Dev nD) (E : Set ℕ) (i : grid1.Coords)
    (arg3 : Memref sig .tc .vmem S512x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : ¬cond1_0 i) (hc1 : ¬cond1_1 i)
    (x0 : Vec F S512x1024 .f32) (x1 : Vec F S1024x1024 .bf16) (x2 : Vec F S1x1024 .f32) (x3 : Vec F S512x1024 .f32)
    (xs : Vec F S512x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_whole _ _ hz2]
  simp only [View.readAt_eq_ld, View.ld_unit_zero (S := S512x1024) hz2, View.ld_unit_zero (S := S1024x1024) hz2]

set_option maxHeartbeats 1000000 in
theorem run1_C (c : Dev nD) (E : Set ℕ) (i : grid1.Coords)
    (arg3 : Memref sig .tc .vmem S512x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : ¬cond1_0 i) (hc1 : cond1_1 i)
    (x0 : Vec F S512x1024 .f32) (x1 : Vec F S1024x1024 .bf16) (x2 : Vec F S1x1024 .f32)
    (xs : Vec F S512x1024 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare xs
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 (k1_pay2 x0 x1 xs) x2)
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store_whole _ _ hz2]
    sl_unfold_run_names
    rw [View.readCov_unit_zero (S := S512x1024) _ hz2]
    simp only [View.readAt_eq_ld, View.ld_unit_zero (S := S512x1024) hz2, View.ld_unit_zero (S := S1024x1024) hz2,
      View.ld_unit_zero (S := S1x1024) hz2]
  iexists _; isplitr
  swap; · iexact HS
  ipureintro
  sl_unfold_run_names
  rw [read_store_whole _ _ hz2]
  simp only [View.readAt_eq_ld, View.ld_unit_zero (S := S512x1024) hz2, View.ld_unit_zero (S := S1024x1024) hz2]

end Cert.Kernel.Hand

end
-- ==== Proof.Kernel.Region1.lean ====
/-
  Region 1's body obligation and the two ends of its invariant.

  At a point t of the grid the last coordinate is t % 4. The three input buffers hold their blocks. Where t % 4 = 0
  the body clears the accumulator (whatever the launch or the point before left in it) and leaves the product of the
  point's blocks added to the zero fill; elsewhere it adds the product to what the point before left; where t % 4 = 3
  it also stores the accumulator plus the bias row into the output buffer, which at the other points is idle and
  handed back as found. The invariant carries the accumulator from point to point; before the first point it is what
  the launch hands over, and after any later point it gives that back by forgetting what the accumulator holds.
-/
import proofs.«123255_j39943195853111_1_alg».proof.Proof.Kernel.Region1.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it to the body, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the last coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 4 = 0
  · -- the accumulator is cleared first
    have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz, PhiA1_eq]
      iintro ⟨⟨⟨Hoth, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hoth, HS, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- the last block of the contraction: the output is stored
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [acc1_next V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩⟩
      iapply (run1_C c Set.univ (grid1.coords t) _ _ _ _ _ _ _ _ _ _ (fun h => h0 ((hcond1_0 t).mp h)) ((hcond1_1 t).mpr h1)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- in between: the accumulator grows, the output buffer is idle
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [acc1_next V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩⟩
      iapply (run1_B c Set.univ (grid1.coords t) _ _ _ _ _ _ _ _ _ _ (fun h => h0 ((hcond1_0 t).mp h)) (fun h => h1 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hoth, HS, Hg⟩
  isplitl [Hoth HS]
  · isplitl [Hoth]; · iexact Hoth
    iexists _; iexact HS
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Cert.Kernel.Hand

end
-- ==== Proof.Kernel.Run.lean ====
/-
  The whole program as four segments — region 0, the two input reshapes, region 1, the output reshape — and its run:
  from any memory every fair execution ends, and every unscoped buffer then holds what the segments leave in it, one
  after the other: a region's output array what its write-backs leave, a reshape's result the reshaped operand, every
  other buffer what it held before the segment. Read at the arguments this is the frame; read at the result it is
  what the value claim compares with the reference.
-/
import proofs.«123255_j39943195853111_1_alg».proof.Proof.Kernel.Data
import proofs.«123255_j39943195853111_1_alg».proof.Proof.Gen.Kernel.Regions
import proofs.«123255_j39943195853111_1_alg».proof.Proof.Kernel.Region0
import proofs.«123255_j39943195853111_1_alg».proof.Proof.Kernel.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two input reshapes (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the output reshape: the end. -/
abbrev W4 : Dev nD → Valuation τ sig (Elt F) := fun c => StableHlo.after hostOps2 (W3 m ρ c)

/-! ## The arguments end as launched -/

/-- `main_arg0` ends as launched: no host operation writes it and no region's write-back reaches it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

/-- `main_arg1` ends as launched: no host operation writes it and no region's write-back reaches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- `main_arg2` ends as launched: no host operation writes it and no region's write-back reaches it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- `main_arg3` ends as launched: no host operation writes it and no region's write-back reaches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- `main_arg4` ends as launched: no host operation writes it and no region's write-back reaches it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

/-- `main_arg5` ends as launched: no host operation writes it and no region's write-back reaches it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at the contents before it, left with the region's arrays
    at what its write-backs leave and every other buffer as entered; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's arrays
    at what its write-backs leave and every other buffer as entered; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every fair execution of the program ends, and every unscoped buffer of every core
    then holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: every execution ends and the six argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result named: every execution ends with the result buffer at the last boundary's contents and
    the arguments as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.KernelIdeal.Data.lean ====
/-
  The proof data of the two kernel regions, stated once for any float instance.

  Region 0 (the dequantise-and-project kernel, 128 grid points, one per block of 32 rows): at point `t` every input
  window's staging buffer holds its block of the array as the region found it, and the output window's buffer holds the
  body's one stored value — the 32×32 projection times the dequantised 32×4096 block — as a function of those blocks.
  Nothing is carried from point to point.

  Region 1 (the blocked matrix product, grid 16×4×4, the last axis the contraction's blocks): the accumulator scratch
  is carried between points. After point `n` it holds `acc1 n`: at a point whose last coordinate is 0 the product of the
  point's blocks added to the zero fill, otherwise added to what the point before left. The output window is stored only
  at the points whose last coordinate is 3, where it is the accumulator plus the bias row spread over the rows.
-/
import proofs.«123255_j39943195853111_1_alg».proof.Proof.Gen.KernelIdeal.Launch
import proofs.«123255_j39943195853111_1_alg».proof.Proof.Gen.KernelIdeal.Skeleton
import proofs.«123255_j39943195853111_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered: the parameter both regions' data are stated at
variable (V : (c : Dev nD) → (b : Ref sig .tc) → Buf (Elt F) ((c : Thread nD τ).loc b))

/-! ## Region 0 -/

/-- Window `w`'s block of its array at point `t`, the array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data on core `c`: the arrays as found; after the body each input buffer still at its block and the
    output buffer at the body's stored value of the four input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 0 t) (iblk0 V c 1 t) (iblk0 V c 2 t) (iblk0 V c 3 t) := by dsimp only [dat0]

/-! ## Region 1 -/

/-- Window `w`'s block of its array at point `t`, the array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch after the body at position `n` of the grid's row-major order: the last grid coordinate is
    `n % 4`; where it is 0 the body first fills the scratch with zeros, everywhere it then adds the product of the
    point's two blocks to what the scratch holds. -/
def acc1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a point whose last coordinate is 0: the product added to the zero fill. -/
theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At any other point: the product added to what the point before left. -/
theorem acc1_next (c : Dev nD) (t : Fin cfg1.N) (h : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator scratch, a whole scoped buffer of the kernel's own. -/
abbrev scM1 : Memref sig .tc .vmem S512x1024 .f32 := Memref.whole cc1_scratch0

/-- The core's scoped buffers that region 1 never touches (region 0's staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- Region 1's invariant before position `n`: before the first point what the launch hands over (every scoped buffer that
    is no staging buffer of this region at anything, the generator register at some state); afterwards the same with the
    accumulator scratch at what the point before left in it. -/
def PhiS1 (c : Dev nD) : (n : ℕ) → n ≤ cfg1.N → sProp 𝕄
  | 0, _ => Pipeline.ΦA spec1 c
  | n + 1, hn => iprop(others1 (F := F) c ∗ owns (c : Thread nD τ) scM1 fullShare (acc1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1 fullShare (acc1 V c n hn) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1 fullShare (acc1 V c (n - 1) (by omega)) ∗ (∃ r, prngReg c r)) := by
  cases n with
  | zero => exact absurd rfl hz
  | succ n => rfl

/-- Region 1's proof data on core `c`: the arrays as found; after the body each input buffer still at its block; the
    output buffer, where it is stored (the last coordinate 3), at the accumulator plus the bias row spread over the rows
    (at the other points the window is idle and the entry is not consulted); the invariant carries the accumulator;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KernelIdeal.Region0.lean ====
/-
  Region 0's body obligation: the dequantise-and-project kernel at one grid point.

  The body reads its four input staging buffers whole, reads the output buffer, and stores one value — the payload
  `k0_pay1` of the four values read — over the whole output buffer. Every access is through the rectangle of the
  buffer's own extents at offset zero, so a load returns the buffer's contents and the single store leaves exactly its
  payload. At point `t` each input buffer holds its block of the array as the region found it, whether or not the
  block was fetched at `t`; so the output buffer ends at `k0_pay1` of the four blocks, which is what the region's proof
  data records. The invariant and the owed transfers pass through the body untouched.
-/
import proofs.«123255_j39943195853111_1_alg».proof.Proof.KernelIdeal.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers at a point -/

/-- Input window 0's current staging buffer holds its block at every point: where the block was fetched, by the
    fetch; where it was not, the block index has not moved since the point before, and the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The same for input window 1, -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- input window 2, -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- and input window 3. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's accesses: each through the whole buffer at offset zero -/

/-- The offsets of a rank-2 access at the origin are all zero, -/
theorem region0_hz2 : (![0, 0] : Fin 2 → Nat) = fun _ => 0 := funext fun a => by fin_cases a <;> rfl
/-- and of a rank-3 one. -/
theorem region0_hz3 : (![0, 0, 0] : Fin 3 → Nat) = fun _ => 0 := funext fun a => by fin_cases a <;> rfl

/-- The rectangle of the output buffer's one store: the whole 32×4096 buffer. -/
abbrev r0_out : Rect S32x4096 := Rect.unit (s := S32x4096) ![0, 0] S32x4096.size inb_S32x4096_S32x4096_0_0

/-- That one store covers the buffer: every index lies in the whole-buffer rectangle. -/
theorem cover0_4 (p : FVec F S32x4096 .bf16) (y : S32x4096.Idx) :
    ∃ pc ∈ ([⟨r0_out, p⟩] : List (View.Piece (Elt F) S32x4096 .bf16)), y ∈ pc.1.set :=
  ⟨_, List.mem_singleton_self _, View.mem_set_unit_zero region0_hz2 inb_S32x4096_S32x4096_0_0 y⟩

/-! ## The body's triple -/

set_option maxHeartbeats 1000000 in
/-- The body on whole staging memrefs, the four inputs' at contents `x0 … x3` and the output's at anything, runs to the
    continuation holding the inputs' as they were and the output's at `k0_pay1 x0 x1 x2 x3`: each load through the
    whole-buffer rectangle reads the contents, and the one covering store leaves its payload. -/
theorem sound_kernel0 (c : Dev nD) (E : Set ℕ) (i : grid0.Coords)
    (arg1 : Memref sig .tc .vmem S32x4096 .i32) (harg1 : arg1.IsWhole)
    (arg2 : Memref sig .tc .vmem S32x64 .f32) (harg2 : arg2.IsWhole)
    (arg3 : Memref sig .tc .vmem S32x64 .f32) (harg3 : arg3.IsWhole)
    (arg4 : Memref sig .tc .vmem S1x32x32 .f32) (harg4 : arg4.IsWhole)
    (arg5 : Memref sig .tc .vmem S32x4096 .bf16) (harg5 : arg5.IsWhole)
    (x0 : Vec F S32x4096 .i32) (x1 : Vec F S32x64 .f32) (x2 : Vec F S32x64 .f32) (x3 : Vec F S1x32x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E
          (cc0__dequant_proj_kernel i arg1 harg1 arg2 harg2 arg3 harg3 arg4 harg4 arg5 harg5) K := by
  simp only [cc0__dequant_proj_kernel_eq_skeleton]; unfold cc0__dequant_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so the buffer reads as the store's payload;
  rw [View.read_writes_eq_canon _ _ _ (cover0_4 _), View.canon_unit_zero region0_hz2]
  -- and each of the payload's four arguments, a load through the whole-buffer rectangle, is the buffer's contents
  have e0 : View.readAt (Elt F) arg1.view (Rect.unit (s := S32x4096) ![0, 0] S32x4096.size inb_S32x4096_S32x4096_0_0).toLoadRect f0
      = View.read (Elt F) arg1.view f0 := (View.readAt_eq_ld _ _ _).trans (View.ld_unit_zero region0_hz2 _ _)
  have e1 : View.readAt (Elt F) arg2.view (Rect.unit (s := S32x64) ![0, 0] S32x64.size inb_S32x64_S32x64_0_0).toLoadRect f1
      = View.read (Elt F) arg2.view f1 := (View.readAt_eq_ld _ _ _).trans (View.ld_unit_zero region0_hz2 _ _)
  have e2 : View.readAt (Elt F) arg3.view (Rect.unit (s := S32x64) ![0, 0] S32x64.size inb_S32x64_S32x64_0_0).toLoadRect f2
      = View.read (Elt F) arg3.view f2 := (View.readAt_eq_ld _ _ _).trans (View.ld_unit_zero region0_hz2 _ _)
  have e3 : View.readAt (Elt F) arg4.view (Rect.unit (s := S1x32x32) ![0, 0, 0] S1x32x32.size inb_S1x32x32_S1x32x32_0_0_0).toLoadRect f3
      = View.read (Elt F) arg4.view f3 := (View.readAt_eq_ld _ _ _).trans (View.ld_unit_zero region0_hz3 _ _)
  rw [e0, e1, e2, e3]

/-! ## The body obligation, at a generic point -/

/-- What the body is handed at point `t`: the invariant, the owed transfers, and each window's current staging memref,
    whole, at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back: the same, each memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. The input memrefs hold their blocks (`before0_0 … before0_3`), so the body's triple applies at
    those four blocks and leaves the output memref at `k0_pay1` of them, the proof data's entry for window 4; the
    invariant and the owed transfers do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- Region 0's body obligation: the windows conjoined one by one, it is `sound_body0` at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.Conds.lean ====
/-
  Region 1 (the blocked matrix product on the grid 16×4×4), what its three control cases share.

  The body branches twice on the last grid coordinate k: it clears the accumulator where k = 0 and adds the bias and
  stores the output block where k = 3. In row-major order position n has k = n % 4, so both conditions are decided
  once over the 256 points. With them: where the output window is idle and not written back (k ≠ 3), that each input
  window's buffer holds its block at every point (the bias block, fetched only where k = 0, has not moved in between),
  and the launch invariant with the accumulator as an owned whole buffer.
-/
import proofs.«123255_j39943195853111_1_alg».proof.Proof.KernelIdeal.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form over the grid -/

/-- The first branch's condition: the last coordinate is 0. -/
abbrev cond1_0 (i : grid1.Coords) : Prop :=
  (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition: the last coordinate is 3. -/
abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- Away from the last block of the contraction the output window is idle -/
theorem idleAt1_3 : ∀ t : Fin cfg1.N, ¬cond1_1 (grid1.coords t) → cfg1.idle 3 (grid1.coords t) = true := by decide +kernel
/-- and is not written back; -/
theorem noFlush1_3 : ∀ t : Fin cfg1.N, ¬cond1_1 (grid1.coords t) → (cfg1.win 3).flush t = false := by decide +kernel
/-- at the last block it is live. -/
theorem liveAt1_3 : ∀ t : Fin cfg1.N, cond1_1 (grid1.coords t) → cfg1.idle 3 (grid1.coords t) = false := by decide +kernel

/-! ## The inputs' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias block is fetched only where the last coordinate is 0; in between its index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The launch invariant, the accumulator as an owned buffer -/

theorem PhiA1_eq (c : Dev nD) :
    (Pipeline.ΦA spec1 c : sProp 𝕄)
      = iprop(iprop(others1 (F := F) c ∗ (∃ d, owns (c : Thread nD τ) scM1 fullShare d)) ∗ (∃ r, prngReg c r)) := by
  unfold Pipeline.ΦA; rw [scopedRest1_eq]; unfold others1; simp only [scM1, owns_whole]
  refine BI.equiv_iff.mp ⟨?_, ?_⟩
  · show (_ : sProp 𝕄) ⊢ (_ : sProp 𝕄)
    iintro ⟨⟨H0, H1, H2, H3, H4, H5, H6, H7, H8, H9, HS⟩, Hg⟩
    isplitr [Hg]
    · isplitr [HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · iexact HS
    · iexact Hg
  · show (_ : sProp 𝕄) ⊢ (_ : sProp 𝕄)
    iintro ⟨⟨⟨H0, H1, H2, H3, H4, H5, H6, H7, H8, H9⟩, HS⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    · iexact Hg

/-- The offsets of a store or load of a whole block, all zero. -/
theorem hz2 : (![0, 0] : Fin 2 → Nat) = fun _ => 0 := funext fun a => by fin_cases a <;> rfl

/-- A buffer read back after a store of a whole block, the last of its stores, is that store's payload, whatever the
    buffer held and whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

end Cert.KernelIdeal.Hand

end
-- ==== Proof.KernelIdeal.Region1.Cases.lean ====
/-
  Region 1's body in its three control cases, each as one triple on whole buffers: the two blocks at `x0`, `x1`, the
  bias block at `x2`, the output buffer, the accumulator.

  A (last coordinate 0): the accumulator, whatever it held, is cleared and then holds the blocks' product added to
  the zero fill; the output buffer is not touched.
  B (last coordinate 1 or 2): the accumulator at `xs` ends at `xs` plus the product; the output buffer is not touched.
  C (last coordinate 3): as B, and the output buffer, whatever it held, ends at the new accumulator plus the bias row.
-/
import proofs.«123255_j39943195853111_1_alg».proof.Proof.KernelIdeal.Region1.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem run1_A (c : Dev nD) (E : Set ℕ) (i : grid1.Coords)
    (arg3 : Memref sig .tc .vmem S512x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : cond1_0 i) (hc1 : ¬cond1_1 i)
    (x0 : Vec F S512x1024 .f32) (x1 : Vec F S1024x1024 .bf16) (x2 : Vec F S1x1024 .f32) (x3 : Vec F S512x1024 .f32)
    (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_whole _ _ hz2]
  sl_unfold_run_names
  rw [View.readCov_unit_zero (S := S512x1024) _ hz2]
  simp only [View.readAt_eq_ld, View.ld_unit_zero (S := S512x1024) hz2, View.ld_unit_zero (S := S1024x1024) hz2]

set_option maxHeartbeats 1000000 in
theorem run1_B (c : Dev nD) (E : Set ℕ) (i : grid1.Coords)
    (arg3 : Memref sig .tc .vmem S512x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : ¬cond1_0 i) (hc1 : ¬cond1_1 i)
    (x0 : Vec F S512x1024 .f32) (x1 : Vec F S1024x1024 .bf16) (x2 : Vec F S1x1024 .f32) (x3 : Vec F S512x1024 .f32)
    (xs : Vec F S512x1024 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_whole _ _ hz2]
  simp only [View.readAt_eq_ld, View.ld_unit_zero (S := S512x1024) hz2, View.ld_unit_zero (S := S1024x1024) hz2]

set_option maxHeartbeats 1000000 in
theorem run1_C (c : Dev nD) (E : Set ℕ) (i : grid1.Coords)
    (arg3 : Memref sig .tc .vmem S512x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S512x1024 .f32) (harg6 : arg6.IsWhole)
    (arg7 : Memref sig .tc .vmem S512x1024 .f32) (harg7 : arg7.IsWhole)
    (hc0 : ¬cond1_0 i) (hc1 : cond1_1 i)
    (x0 : Vec F S512x1024 .f32) (x1 : Vec F S1024x1024 .bf16) (x2 : Vec F S1x1024 .f32)
    (xs : Vec F S512x1024 .f32) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare xs
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 (k1_pay2 x0 x1 xs) x2)
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_store_whole _ _ hz2]
    sl_unfold_run_names
    rw [View.readCov_unit_zero (S := S512x1024) _ hz2]
    simp only [View.readAt_eq_ld, View.ld_unit_zero (S := S512x1024) hz2, View.ld_unit_zero (S := S1024x1024) hz2,
      View.ld_unit_zero (S := S1x1024) hz2]
  iexists _; isplitr
  swap; · iexact HS
  ipureintro
  sl_unfold_run_names
  rw [read_store_whole _ _ hz2]
  simp only [View.readAt_eq_ld, View.ld_unit_zero (S := S512x1024) hz2, View.ld_unit_zero (S := S1024x1024) hz2]

end Cert.KernelIdeal.Hand

end
-- ==== Proof.KernelIdeal.Region1.lean ====
/-
  Region 1's body obligation and the two ends of its invariant.

  At a point t of the grid the last coordinate is t % 4. The three input buffers hold their blocks. Where t % 4 = 0
  the body clears the accumulator (whatever the launch or the point before left in it) and leaves the product of the
  point's blocks added to the zero fill; elsewhere it adds the product to what the point before left; where t % 4 = 3
  it also stores the accumulator plus the bias row into the output buffer, which at the other points is idle and
  handed back as found. The invariant carries the accumulator from point to point; before the first point it is what
  the launch hands over, and after any later point it gives that back by forgetting what the accumulator holds.
-/
import proofs.«123255_j39943195853111_1_alg».proof.Proof.KernelIdeal.Region1.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each window's current staging memref at point `t`, as the pipeline passes it to the body, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the last coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 4 = 0
  · -- the accumulator is cleared first
    have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz, PhiA1_eq]
      iintro ⟨⟨⟨Hoth, HS⟩, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hoth, HS, Hg⟩, Ho, ⟨%d0, H0⟩, ⟨%d1, H1⟩, ⟨%d2, H2⟩, ⟨%d3, H3⟩⟩
      iapply (run1_A c Set.univ (grid1.coords t) _ _ _ _ _ _ _ _ _ _ ((hcond1_0 t).mpr h0) (fun h => h1 ((hcond1_1 t).mp h))
        (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- the last block of the contraction: the output is stored
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [acc1_next V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩⟩
      iapply (run1_C c Set.univ (grid1.coords t) _ _ _ _ _ _ _ _ _ _ (fun h => h0 ((hcond1_0 t).mp h)) ((hcond1_1 t).mpr h1)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- in between: the accumulator grows, the output buffer is idle
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [acc1_next V c t h0]
      rw [PhiS1_castSucc V c t, PhiS1_pos V c _ _ hz]
      iintro ⟨⟨Hoth, HS, Hg⟩, Ho, ⟨%d0, H0⟩, ⟨%d1, H1⟩, ⟨%d2, H2⟩, ⟨%d3, H3⟩⟩
      iapply (run1_B c Set.univ (grid1.coords t) _ _ _ _ _ _ _ _ _ _ (fun h => h0 ((hcond1_0 t).mp h)) (fun h => h1 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hoth, HS, Hg⟩
  isplitl [Hoth HS]
  · isplitl [Hoth]; · iexact Hoth
    iexists _; iexact HS
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Cert.KernelIdeal.Hand

end
-- ==== Proof.KernelIdeal.Run.lean ====
/-
  The whole program as four segments — region 0, the two input reshapes, region 1, the output reshape — and its run:
  from any memory every fair execution ends, and every unscoped buffer then holds what the segments leave in it, one
  after the other: a region's output array what its write-backs leave, a reshape's result the reshaped operand, every
  other buffer what it held before the segment. Read at the arguments this is the frame; read at the result it is
  what the value claim compares with the reference.
-/
import proofs.«123255_j39943195853111_1_alg».proof.Proof.KernelIdeal.Data
import proofs.«123255_j39943195853111_1_alg».proof.Proof.Gen.KernelIdeal.Regions
import proofs.«123255_j39943195853111_1_alg».proof.Proof.KernelIdeal.Region0
import proofs.«123255_j39943195853111_1_alg».proof.Proof.KernelIdeal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At region 0's exit: its arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two input reshapes (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the output reshape: the end. -/
abbrev W4 : Dev nD → Valuation τ sig (Elt F) := fun c => StableHlo.after hostOps2 (W3 m ρ c)

/-! ## The arguments end as launched -/

/-- `main_arg0` ends as launched: no host operation writes it and no region's write-back reaches it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

/-- `main_arg1` ends as launched: no host operation writes it and no region's write-back reaches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- `main_arg2` ends as launched: no host operation writes it and no region's write-back reaches it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- `main_arg3` ends as launched: no host operation writes it and no region's write-back reaches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- `main_arg4` ends as launched: no host operation writes it and no region's write-back reaches it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

/-- `main_arg5` ends as launched: no host operation writes it and no region's write-back reaches it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at the contents before it, left with the region's arrays
    at what its write-backs leave and every other buffer as entered; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's arrays
    at what its write-backs leave and every other buffer as entered; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every fair execution of the program ends, and every unscoped buffer of every core
    then holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: every execution ends and the six argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result named: every execution ends with the result buffer at the last boundary's contents and
    the arguments as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.Spec.lean ====
/-
  The mathematics both programs compute, as functions of the argument arrays over the extended reals, entry by entry.

  Weights arrive quantised: an integer code per entry, and per row and per group of 64 consecutive columns an offset
  and a scale. The dequantised weight is (code − offset) · scale. Rows come in 128 blocks of 32; block p is multiplied on
  the left by its own 32×32 matrix. The output is the input times the transpose of the projected weights, plus a bias
  per output column.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 4096]⟩
abbrev SW : Shape := ⟨2, ![4096, 4096]⟩
abbrev SG : Shape := ⟨2, ![4096, 64]⟩
abbrev SP : Shape := ⟨3, ![128, 32, 32]⟩
abbrev SB : Shape := ⟨1, ![4096]⟩
abbrev SX2 : Shape := ⟨2, ![8192, 4096]⟩
abbrev SB2 : Shape := ⟨2, ![1, 4096]⟩

/-- The group of 64 consecutive columns a column lies in. -/
def grp (i : Fin 4096) : Fin 64 := ⟨i.val / 64, by omega⟩
/-- The block of 32 consecutive rows a row lies in, -/
def blkOf (o : Fin 4096) : Fin 128 := ⟨o.val / 32, by omega⟩
/-- its place inside the block, -/
def rowIn (o : Fin 4096) : Fin 32 := ⟨o.val % 32, by omega⟩
/-- and row `j` of block `p`. -/
def rowAt (p : Fin 128) (j : Fin 32) : Fin 4096 := ⟨32 * p.val + j.val, by omega⟩

/-- The dequantised weight at row `o`, column `i`: (code − offset) · scale, offset and scale those of the row and of the
    column's group. -/
def Wd (wq : SW.Idx → BitVec 32) (scale zero : SG.Idx → EReal) (o i : Fin 4096) : EReal :=
  ((sitofp (F := Ideal) .f32 wq : FVec Ideal SW .f32) (ix2 o i) - zero (ix2 o (grp i))) * scale (ix2 o (grp i))

/-- The projected weight: row `o` of its block's 32×32 matrix times the block's dequantised rows. -/
def Wp (wq : SW.Idx → BitVec 32) (scale zero : SG.Idx → EReal) (proj : SP.Idx → EReal) (o i : Fin 4096) : EReal :=
  ∑ j : Fin 32, proj (ix3 (blkOf o) (rowIn o) j) * Wd wq scale zero (rowAt (blkOf o) j) i

/-- The projected weights as an array. -/
def WpArr (wq : SW.Idx → BitVec 32) (scale zero : SG.Idx → EReal) (proj : SP.Idx → EReal) : SW.Idx → EReal :=
  fun y => Wp wq scale zero proj (y 0) (y 1)

/-- A matrix times the transpose of a weight matrix, plus a one-row bias: entry (r, o) is the sum over `i` of
    x(r, i) · w(o, i), plus b(0, o). -/
def Out2 (x2 : SX2.Idx → EReal) (w : SW.Idx → EReal) (b2 : SB2.Idx → EReal) : SX2.Idx → EReal :=
  fun y => (∑ i : Fin 4096, x2 (ix2 (y 0) i) * w (ix2 (y 1) i)) + b2 (ix2 0 (y 1))

/-- The whole result: entry (b, s, o) is the sum over `i` of x(b, s, i) times the projected weight (o, i), plus bias(o). -/
def G (x : SX.Idx → EReal) (wq : SW.Idx → BitVec 32) (scale zero : SG.Idx → EReal) (proj : SP.Idx → EReal)
    (bias : SB.Idx → EReal) : SX.Idx → EReal :=
  fun y => (∑ i : Fin 4096, x (ix3 (y 0) (y 1) i) * Wp wq scale zero proj (y 2) i) + bias (ix1 (y 2))

end Cert.Spec

end
-- ==== Proof.Compose.lean ====
/-
  The result array as the kernel's program lays it out: the input with its two leading axes merged into 8192 rows, the
  matrix product with the bias row taken on that, the rows split back into 4 × 2048. Entry (b, s, o) of the split is
  entry (2048·b + s, o) of the product, whose input row is the input's (b, s) row: so the whole is the specification.
-/
import proofs.«123255_j39943195853111_1_alg».proof.Proof.Spec
import Idealize.ShloMosaic.Lib.ValueIdx
import Idealize.ShloMosaic.Lib.ValueLayout
import Idealize.ShloMosaic.Lib.Pipeline.Value

set_option maxRecDepth 16384

noncomputable section

namespace Cert.Spec

open Idealize.ShloMosaic Idealize.ShloMosaic.ValueIdx

/-- Row (b, s) of the merged input. -/
def mrow (b : Fin 4) (s : Fin 2048) : Fin 8192 := ⟨b.val * 2048 + s.val, by omega⟩

/-- The merged input read at (row (b, s), i) is the input at (b, s, i). -/
theorem merged_apply (x : SX.Idx → EReal) (h : SX.ShapeCasts SX2) (b : Fin 4) (s : Fin 2048) (i : Fin 4096) :
    shapeCast SX2 x h (ix2 (mrow b s) i) = x (ix3 b s i) :=
  shapeCast_apply x h _ _ (by
    rw [Shape.rowMajor_val_three, Shape.rowMajor_val_two]
    rfl)

/-- The split of an 8192-row array read at (b, s, o) is the array at (row (b, s), o). -/
theorem split_apply (z : SX2.Idx → EReal) (h : SX2.ShapeCasts SX) (b : Fin 4) (s : Fin 2048) (o : Fin 4096) :
    shapeCast SX z h (ix3 b s o) = z (ix2 (mrow b s) o) :=
  shapeCast_apply z h _ _ (by
    rw [Shape.rowMajor_val_three, Shape.rowMajor_val_two]
    rfl)

/-- Merge, multiply by the transposed projected weights and add the bias row, split: the specification. -/
theorem split_out2_merged (x : SX.Idx → EReal) (wq : SW.Idx → BitVec 32) (scale zero : SG.Idx → EReal) (proj : SP.Idx → EReal)
    (bias : SB.Idx → EReal) (h1 : SX.ShapeCasts SX2) (h2 : SB.ShapeCasts SB2) (h3 : SX2.ShapeCasts SX) :
    shapeCast SX (Out2 (shapeCast SX2 x h1) (WpArr wq scale zero proj) (shapeCast SB2 bias h2)) h3
      = G x wq scale zero proj bias := by
  funext y
  obtain ⟨b, s, o, rfl⟩ : ∃ (b : Fin 4) (s : Fin 2048) (o : Fin 4096), y = ix3 b s o := ⟨y 0, y 1, y 2, eq_ix3 y⟩
  rw [split_apply]
  show (∑ i : Fin 4096, shapeCast SX2 x h1 (ix2 (mrow b s) i) * WpArr wq scale zero proj (ix2 o i))
      + shapeCast SB2 bias h2 (ix2 0 o) = _
  rw [shapeCast_a_1a_apply bias h2 0 o]
  simp only [merged_apply]
  rfl

end Cert.Spec

end
-- ==== Proof.KernelIdeal.Payloads.lean ====
/-
  The kernel bodies' stored values read at one entry, over the extended reals.
-/
import proofs.«123255_j39943195853111_1_alg».proof.Proof.Gen.KernelIdeal.Skeleton
import proofs.«123255_j39943195853111_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

namespace Pay

/-! ## Region 0: the layout steps of the dequantisation, read at an entry -/

section Layout
variable {α : Type}

/-- A 32×4096 array viewed as 32×64×64 reads, at (j, g, l), the array at (j, i) when column i is place l of group g. -/
theorem shapeCast_groups_apply (x : S32x4096.Idx → α) (h : S32x4096.ShapeCasts S32x64x64) (j : Fin 32) (i : Fin 4096)
    (g l : Fin 64) (hi : i.val = g.val * 64 + l.val) : shapeCast S32x64x64 x h (ix3 j g l) = x (ix2 j i) :=
  shapeCast_apply x h _ _ (by
    rw [Shape.rowMajor_val_two, Shape.rowMajor_val_three]
    show j.val * 4096 + i.val = (j.val * 64 + g.val) * 64 + l.val
    omega)

/-- A 32×64×64 array viewed as 32×4096 reads, at (j, i), the array at (j, g, l) when column i is place l of group g. -/
theorem shapeCast_columns_apply (y : S32x64x64.Idx → α) (h : S32x64x64.ShapeCasts S32x4096) (j : Fin 32) (i : Fin 4096)
    (g l : Fin 64) (hi : i.val = g.val * 64 + l.val) : shapeCast S32x4096 y h (ix2 j i) = y (ix3 j g l) :=
  shapeCast_apply y h _ _ (by
    rw [Shape.rowMajor_val_two, Shape.rowMajor_val_three]
    show (j.val * 64 + g.val) * 64 + l.val = j.val * 4096 + i.val
    omega)

/-- A per-row, per-group value spread over the 64 places of each group reads, at (j, g, l), the value of row j, group g. -/
theorem spread_group_apply (z : S32x64.Idx → α) (h1 : S32x64.ShapeCasts S32x64x1) (h2 : S32x64x1.Broadcasts S32x64x64)
    (j : Fin 32) (g l : Fin 64) : broadcastTo S32x64x64 (shapeCast S32x64x1 z h1) h2 (ix3 j g l) = z (ix2 j g) := by
  refine (broadcastTo_apply _ h2 (ix3 j g l) (ix3 j g (0 : Fin 1)) fun a => ?_).trans ?_
  · match a with
    | ⟨0, _⟩ => show j.val = if (32 : Nat) = 1 then 0 else j.val; rw [if_neg (by decide)]
    | ⟨1, _⟩ => show g.val = if (64 : Nat) = 1 then 0 else g.val; rw [if_neg (by decide)]
    | ⟨2, _⟩ => show 0 = if (1 : Nat) = 1 then 0 else l.val; rw [if_pos rfl]
  · exact shapeCast_apply z h1 _ _ (by
      rw [Shape.rowMajor_val_two, Shape.rowMajor_val_three]
      show j.val * 64 + g.val = (j.val * 64 + g.val) * 1 + 0
      omega)

end Layout

/-- Region 0's product contracts the block matrix's columns with the dequantised block's rows. -/
abbrev D0 := dot_S32x32_S32x4096_S32x4096_1_0_0_1_n_n

/-- At output entry (r, i) and contraction coordinate j the left operand is read at (r, j) … -/
theorem D0_lhs (r : Fin 32) (i : Fin 4096) (j : Fin 32) :
    D0.lhsIdx (ix2 r i) ((contrEquiv1 D0 32 rfl rfl).symm j) = ix2 r j := by
  funext a
  refine Fin.ext ?_
  match a with
  | ⟨0, _⟩ => rfl
  | ⟨1, _⟩ =>
    exact (D0.lhsIdx_val_of_single (cl := (1 : Fin 2)) rfl (ix2 r i) _).trans (contrEquiv1_symm_val D0 32 rfl rfl j)

/-- … and the right operand at (j, i). -/
theorem D0_rhs (r : Fin 32) (i : Fin 4096) (j : Fin 32) :
    D0.rhsIdx (ix2 r i) ((contrEquiv1 D0 32 rfl rfl).symm j) = ix2 j i := by
  funext a
  refine Fin.ext ?_
  match a with
  | ⟨0, _⟩ =>
    exact (D0.rhsIdx_val_of_single (cr := (0 : Fin 2)) rfl (ix2 r i) _).trans (contrEquiv1_symm_val D0 32 rfl rfl j)
  | ⟨1, _⟩ => rfl

/-- Region 1's product contracts the columns of the input block with the columns of the weight block: entry (p, q) pairs
    row p of the one with row q of the other. -/
abbrev D1 := dot_S512x1024_S1024x1024_S512x1024_1_1_0_0_n_n

/-- At output entry (p, q) and contraction coordinate k the left operand is read at (p, k) … -/
theorem D1_lhs (p : Fin 512) (q : Fin 1024) (k : Fin 1024) :
    D1.lhsIdx (ix2 p q) ((contrEquiv1 D1 1024 rfl rfl).symm k) = ix2 p k := by
  funext a
  refine Fin.ext ?_
  match a with
  | ⟨0, _⟩ => rfl
  | ⟨1, _⟩ =>
    exact (D1.lhsIdx_val_of_single (cl := (1 : Fin 2)) rfl (ix2 p q) _).trans (contrEquiv1_symm_val D1 1024 rfl rfl k)

/-- … and the right operand at (q, k). -/
theorem D1_rhs (p : Fin 512) (q : Fin 1024) (k : Fin 1024) :
    D1.rhsIdx (ix2 p q) ((contrEquiv1 D1 1024 rfl rfl).symm k) = ix2 q k := by
  funext a
  refine Fin.ext ?_
  match a with
  | ⟨0, _⟩ => rfl
  | ⟨1, _⟩ =>
    exact (D1.rhsIdx_val_of_single (cr := (1 : Fin 2)) rfl (ix2 p q) _).trans (contrEquiv1_symm_val D1 1024 rfl rfl k)

end Pay

open Pay

/-- Region 0's stored value at row r, column i of the block: row r of the block's 32×32 matrix times column i of
    the dequantised block, (code − offset) · scale with the offset and scale of the column's group of 64. The format
    changes are the identity; the product into a zero accumulator is the sum over the contracted coordinate; the two
    regroupings of the columns, 4096 = 64 × 64 and back, cancel, and in between the offset and the scale of (row, group)
    are spread over the group's 64 places. -/
theorem k0_pay1_apply (v0 : Vec Ideal S32x4096 .i32) (v2 v3 : Vec Ideal S32x64 .f32) (v12 : Vec Ideal S1x32x32 .f32)
    (r : Fin 32) (i : Fin 4096) :
    k0_pay1 (F := Ideal) v0 v2 v3 v12 (ix2 r i)
      = ∑ j : Fin 32, v12 (ix3 0 r j)
          * (((sitofp (F := Ideal) .f32 v0 : FVec Ideal S32x4096 .f32) (ix2 j i) - v3 (ix2 j (Cert.Spec.grp i))) * v2 (ix2 j (Cert.Spec.grp i))) := by
  have hi : i.val = (Cert.Spec.grp i).val * 64 + (⟨i.val % 64, Nat.mod_lt _ (by decide)⟩ : Fin 64).val := by
    show i.val = i.val / 64 * 64 + i.val % 64
    omega
  unfold k0_pay1
  refine (Ideal.matmul_constant_zero_apply D0 none _ _ (ix2 r i)).trans ?_
  refine (Equiv.sum_comp (contrEquiv1 D0 32 rfl rfl).symm _).symm.trans ?_
  refine Finset.sum_congr rfl fun j _ => ?_
  rw [D0_lhs, D0_rhs]
  refine congrArg₂ (· * ·) ?_ ?_
  · exact shapeCast_1ab_ab_apply v12 _ r j
  · refine (truncf_apply _ bitsLt_bf16_f32 (ix2 j i)).trans ?_
    refine (shapeCast_columns_apply _ _ j i _ _ hi).trans ?_
    refine (mulf_apply _ _ _).trans (congrArg₂ (· * ·) ((subf_apply _ _ _).trans (congrArg₂ (· - ·) ?_ ?_)) ?_)
    · exact shapeCast_groups_apply _ _ j i _ _ hi
    · exact spread_group_apply v3 _ _ j _ _
    · exact spread_group_apply v2 _ _ j _ _

/-- Region 1's reset value: zero everywhere (the zero word is the extended real 0). -/
theorem k1_pay1_apply (y : S512x1024.Idx) : k1_pay1 (F := Ideal) y = 0 := by
  unfold k1_pay1
  refine (congrFun (shapeCast_self _ _) y).trans ?_
  exact Ideal.ofBits_zero_f32

/-- Region 1's accumulation step at (p, q): what the accumulator held plus the sum over k of x(p, k) · w(q, k). -/
theorem k1_pay2_apply (v3 : Vec Ideal S512x1024 .f32) (v6 : Vec Ideal S1024x1024 .bf16) (v8 : Vec Ideal S512x1024 .f32)
    (p : Fin 512) (q : Fin 1024) :
    k1_pay2 (F := Ideal) v3 v6 v8 (ix2 p q) = v8 (ix2 p q) + ∑ k : Fin 1024, v3 (ix2 p k) * v6 (ix2 q k) := by
  unfold k1_pay2
  refine (congrFun (shapeCast_self _ _) _).trans ?_
  refine congrArg (v8 (ix2 p q) + ·) ?_
  refine (Ideal.matmul_constant_zero_apply D1 none _ _ (ix2 p q)).trans ?_
  refine (Equiv.sum_comp (contrEquiv1 D1 1024 rfl rfl).symm _).symm.trans ?_
  refine Finset.sum_congr rfl fun k _ => ?_
  rw [D1_lhs, D1_rhs]
  refine congrArg₂ (· * ·) ?_ ?_
  · exact congrFun (shapeCast_self v3 _) _
  · exact congrFun (shapeCast_self v6 _) _

/-- Region 1's output value at (p, q): the accumulator plus the bias row's entry at column q. -/
theorem k1_pay3_apply (v17 : Vec Ideal S512x1024 .f32) (v18 : Vec Ideal S1x1024 .f32) (p : Fin 512) (q : Fin 1024) :
    k1_pay3 (F := Ideal) v17 v18 (ix2 p q) = v17 (ix2 p q) + v18 (ix2 0 q) := by
  unfold k1_pay3
  refine congrArg (v17 (ix2 p q) + ·) ?_
  refine (broadcastTo_1b_ab_apply _ _ p q).trans ?_
  exact congrFun (shapeCast_self v18 _) _

end Cert.KernelIdeal.Hand

end
-- ==== Proof.KernelIdeal.Arrays0.lean ====
/-
  What region 0's output array holds after all its write-backs, over the extended reals.

  The grid has 128 points; point p stages rows 32·p … 32·p + 31 of the codes, scales and offsets and the p-th 32×32 matrix,
  and writes back rows 32·p … 32·p + 31 of the output: entry (32·p + r, i) is the sum over j of the matrix's entry (r, j)
  times the dequantised weight at row 32·p + j, column i. The 128 row blocks tile the array, so it ends holding the projected
  weights everywhere.
-/
import proofs.«123255_j39943195853111_1_alg».proof.Proof.KernelIdeal.Data
import proofs.«123255_j39943195853111_1_alg».proof.Proof.KernelIdeal.Payloads
import proofs.«123255_j39943195853111_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps of region 0, decided over the grid: every window's block index at point t is t on the row
    axis and 0 on the others. -/
theorem idx_rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The grid has 128 points. -/
theorem lt128 (t : Fin cfg0.N) : t.val < 128 := by
  exact Nat.lt_of_lt_of_eq t.isLt (show cfg0.N = 128 from N_0)

/-- The codes' block at point t is rows 32·t … 32·t + 31 of the codes. -/
theorem codes_blk (c : Dev nD) (t : Fin cfg0.N) (j : Fin 32) (i : Fin 4096) (k : S4096x4096.Idx)
    (hk0 : (k 0).val = 32 * t.val + j.val) (hk1 : (k 1).val = i.val) :
    (iblk0 V c 0 t : Vec Ideal S32x4096 .i32) (ix2 j i) = (V c main_arg1 : S4096x4096.Idx → BitVec 32) k := by
  obtain ⟨e0, e1, -⟩ := idx_rows0 t
  unfold iblk0
  rw [View.read_apply]
  show V c main_arg1 _ = V c main_arg1 _
  congr 1
  funext a
  apply Fin.ext
  match a with
  | ⟨0, _⟩ => show win0_0.index t (0 : Fin 2) * 32 + 1 * j.val = (k 0).val; omega
  | ⟨1, _⟩ => show win0_0.index t (1 : Fin 2) * 4096 + 1 * i.val = (k 1).val; omega

/-- The scales' block at point t is rows 32·t … 32·t + 31 of the scales. -/
theorem scales_blk (c : Dev nD) (t : Fin cfg0.N) (j : Fin 32) (g : Fin 64) (k : S4096x64.Idx)
    (hk0 : (k 0).val = 32 * t.val + j.val) (hk1 : (k 1).val = g.val) :
    (iblk0 V c 1 t : Vec Ideal S32x64 .f32) (ix2 j g) = (V c main_arg2 : S4096x64.Idx → EReal) k := by
  obtain ⟨-, -, e0, e1, -⟩ := idx_rows0 t
  unfold iblk0
  rw [View.read_apply]
  show V c main_arg2 _ = V c main_arg2 _
  congr 1
  funext a
  apply Fin.ext
  match a with
  | ⟨0, _⟩ => show win0_1.index t (0 : Fin 2) * 32 + 1 * j.val = (k 0).val; omega
  | ⟨1, _⟩ => show win0_1.index t (1 : Fin 2) * 64 + 1 * g.val = (k 1).val; omega

/-- The offsets' block at point t is rows 32·t … 32·t + 31 of the offsets. -/
theorem offsets_blk (c : Dev nD) (t : Fin cfg0.N) (j : Fin 32) (g : Fin 64) (k : S4096x64.Idx)
    (hk0 : (k 0).val = 32 * t.val + j.val) (hk1 : (k 1).val = g.val) :
    (iblk0 V c 2 t : Vec Ideal S32x64 .f32) (ix2 j g) = (V c main_arg3 : S4096x64.Idx → EReal) k := by
  obtain ⟨-, -, -, -, e0, e1, -⟩ := idx_rows0 t
  unfold iblk0
  rw [View.read_apply]
  show V c main_arg3 _ = V c main_arg3 _
  congr 1
  funext a
  apply Fin.ext
  match a with
  | ⟨0, _⟩ => show win0_2.index t (0 : Fin 2) * 32 + 1 * j.val = (k 0).val; omega
  | ⟨1, _⟩ => show win0_2.index t (1 : Fin 2) * 64 + 1 * g.val = (k 1).val; omega

/-- The matrices' block at point t is the t-th 32×32 matrix. -/
theorem matrix_blk (c : Dev nD) (t : Fin cfg0.N) (r j : Fin 32) (k : S128x32x32.Idx)
    (hk0 : (k 0).val = t.val) (hk1 : (k 1).val = r.val) (hk2 : (k 2).val = j.val) :
    (iblk0 V c 3 t : Vec Ideal S1x32x32 .f32) (ix3 0 r j) = (V c main_arg4 : S128x32x32.Idx → EReal) k := by
  obtain ⟨-, -, -, -, -, -, e0, e1, e2, -⟩ := idx_rows0 t
  unfold iblk0
  rw [View.read_apply]
  show V c main_arg4 _ = V c main_arg4 _
  congr 1
  funext a
  apply Fin.ext
  match a with
  | ⟨0, _⟩ => show win0_3.index t (0 : Fin 3) * 1 + 1 * (0 : Fin 1).val = (k 0).val; omega
  | ⟨1, _⟩ => show win0_3.index t (1 : Fin 3) * 32 + 1 * r.val = (k 1).val; omega
  | ⟨2, _⟩ => show win0_3.index t (2 : Fin 3) * 32 + 1 * j.val = (k 2).val; omega

/-- The stored value of four blocks that are rows 32·p … 32·p + 31 of the four arrays (the p-th matrix), at row r and
    column i of the block, is the projected weight at row 32·p + r, column i. -/
theorem pay_rows (v0 : Vec Ideal S32x4096 .i32) (v2 v3 : Vec Ideal S32x64 .f32) (v12 : Vec Ideal S1x32x32 .f32)
    (wq : Cert.Spec.SW.Idx → BitVec 32) (scale zero : Cert.Spec.SG.Idx → EReal) (proj : Cert.Spec.SP.Idx → EReal)
    (p : Fin 128)
    (h0 : ∀ (j : Fin 32) (i : Fin 4096), v0 (ix2 j i) = wq (ix2 (Cert.Spec.rowAt p j) i))
    (h2 : ∀ (j : Fin 32) (g : Fin 64), v2 (ix2 j g) = scale (ix2 (Cert.Spec.rowAt p j) g))
    (h3 : ∀ (j : Fin 32) (g : Fin 64), v3 (ix2 j g) = zero (ix2 (Cert.Spec.rowAt p j) g))
    (h12 : ∀ (r j : Fin 32), v12 (ix3 0 r j) = proj (ix3 p r j))
    (r : Fin 32) (i : Fin 4096) (o : Fin 4096) (ho : o.val = 32 * p.val + r.val) :
    k0_pay1 (F := Ideal) v0 v2 v3 v12 (ix2 r i) = Cert.Spec.Wp wq scale zero proj o i := by
  rw [k0_pay1_apply]
  unfold Cert.Spec.Wp Cert.Spec.Wd
  have hb : Cert.Spec.blkOf o = p := Fin.ext (by show o.val / 32 = p.val; have := r.isLt; omega)
  have hr : Cert.Spec.rowIn o = r := Fin.ext (by show o.val % 32 = r.val; have := r.isLt; omega)
  rw [hb, hr]
  refine Finset.sum_congr rfl fun j _ => ?_
  rw [h12, sitofp_apply, sitofp_apply, h0, h2, h3]

/-- The same at any index y of the block: the row of the array is 32·p + the row of the block. -/
theorem pay_rows_at (v0 : Vec Ideal S32x4096 .i32) (v2 v3 : Vec Ideal S32x64 .f32) (v12 : Vec Ideal S1x32x32 .f32)
    (wq : Cert.Spec.SW.Idx → BitVec 32) (scale zero : Cert.Spec.SG.Idx → EReal) (proj : Cert.Spec.SP.Idx → EReal)
    (p : Fin 128)
    (h0 : ∀ (j : Fin 32) (i : Fin 4096), v0 (ix2 j i) = wq (ix2 (Cert.Spec.rowAt p j) i))
    (h2 : ∀ (j : Fin 32) (g : Fin 64), v2 (ix2 j g) = scale (ix2 (Cert.Spec.rowAt p j) g))
    (h3 : ∀ (j : Fin 32) (g : Fin 64), v3 (ix2 j g) = zero (ix2 (Cert.Spec.rowAt p j) g))
    (h12 : ∀ (r j : Fin 32), v12 (ix3 0 r j) = proj (ix3 p r j))
    (y : S32x4096.Idx) (o i : Fin 4096) (ho : o.val = 32 * p.val + (y 0).val) (hi : i.val = (y 1).val) :
    k0_pay1 (F := Ideal) v0 v2 v3 v12 y = Cert.Spec.Wp wq scale zero proj o i := by
  obtain rfl : i = ⟨(y 1).val, idx2_lt1 y⟩ := Fin.ext hi
  have hy : y = ix2 (⟨(y 0).val, idx2_lt0 y⟩ : Fin 32) (⟨(y 1).val, idx2_lt1 y⟩ : Fin 4096) := by
    funext a; match a with | ⟨0, _⟩ => rfl | ⟨1, _⟩ => rfl
  rw [hy]
  exact pay_rows v0 v2 v3 v12 wq scale zero proj p h0 h2 h3 h12 _ _ o ho

/-- What point t writes back is rows 32·t … 32·t + 31 of the projected weights. -/
theorem flushed0_eq (c : Dev nD) (t : Fin cfg0.N) :
    (dat0 V c).flushed 4 t = ((cfg0.win 4).blk t).view.read (Elt Ideal)
      (Cert.Spec.WpArr (V c main_arg1) (V c main_arg2) (V c main_arg3) (V c main_arg4)) := by
  show (cfg0.win 4).cut (grid0.coords t) ((dat0 V c).after 4 t) = _
  rw [after0_4]
  obtain ⟨-, -, -, -, -, -, -, -, -, e0, e1⟩ := idx_rows0 t
  funext y
  show k0_pay1 (F := Ideal) (iblk0 V c 0 t) (iblk0 V c 1 t) (iblk0 V c 2 t) (iblk0 V c 3 t) y
    = Cert.Spec.Wp (V c main_arg1) (V c main_arg2) (V c main_arg3) (V c main_arg4)
        ((((cfg0.win 4).blk t).view.emb y) 0) ((((cfg0.win 4).blk t).view.emb y) 1)
  refine pay_rows_at _ _ _ _ _ _ _ _ ⟨t.val, lt128 t⟩ ?_ ?_ ?_ ?_ y _ _ ?_ ?_
  · intro j i
    exact codes_blk V c t j i _ rfl rfl
  · intro j g
    exact scales_blk V c t j g _ rfl rfl
  · intro j g
    exact offsets_blk V c t j g _ rfl rfl
  · intro r j
    exact matrix_blk V c t r j _ rfl rfl rfl
  · show win0_4.index t (0 : Fin 2) * 32 + 1 * (y 0).val = 32 * t.val + (y 0).val
    omega
  · show win0_4.index t (1 : Fin 2) * 4096 + 1 * (y 1).val = (y 1).val
    omega

/-- An index of the output is in point t's block iff each coordinate is in the block's range on its axis. -/
theorem mem_rows0 (t : Fin cfg0.N) (i : S4096x4096.Idx) :
    i ∈ ((cfg0.win 4).blk t).view.set ↔ ∀ a : Fin 2, win0_4.index t a * S32x4096.size a ≤ (i a).val
      ∧ (i a).val < win0_4.index t a * S32x4096.size a + S32x4096.size a := by
  show i ∈ ((View.whole main_v0).slice (win0_4.rect t)).set ↔ _
  rw [View.set_slice_whole, Rect.mem_set_unit]
  exact Iff.rfl

/-- Every entry of the output is written back by the point of its row's block: row o by point o / 32. -/
theorem cover_rows0 (i : S4096x4096.Idx) :
    ∃ t : Fin cfg0.N, (cfg0.win 4).flush t = true ∧ i ∈ ((cfg0.win 4).blk t).view.set := by
  have hi0 : (i 0).val < 4096 := idx2_lt0 i
  have hi1 : (i 1).val < 4096 := idx2_lt1 i
  have hN : cfg0.N = 128 := N_0
  refine ⟨⟨(i 0).val / 32, by rw [hN]; omega⟩, flush0_4 _, ?_⟩
  rw [mem_rows0]
  obtain ⟨-, -, -, -, -, -, -, -, -, e0, e1⟩ := idx_rows0 ⟨(i 0).val / 32, by rw [hN]; omega⟩
  intro a
  match a with
  | ⟨0, _⟩ =>
    show win0_4.index _ (0 : Fin 2) * 32 ≤ (i 0).val ∧ (i 0).val < win0_4.index _ (0 : Fin 2) * 32 + 32
    rw [e0]
    show (i 0).val / 32 * 32 ≤ (i 0).val ∧ (i 0).val < (i 0).val / 32 * 32 + 32
    omega
  | ⟨1, _⟩ =>
    show win0_4.index _ (1 : Fin 2) * 4096 ≤ (i 1).val ∧ (i 1).val < win0_4.index _ (1 : Fin 2) * 4096 + 4096
    rw [e1]
    omega

/-- REGION 0'S OUTPUT after all its write-backs: the projected weights, whatever the arrays held at entry. -/
theorem arr0_final (c : Dev nD) :
    (dat0 (F := Ideal) V c).arrAt 4 cfg0.N
      = Cert.Spec.WpArr (V c main_arg1) (V c main_arg2) (V c main_arg3) (V c main_arg4) :=
  (dat0 V c).arrAt_eq_of_cover 4
    (Cert.Spec.WpArr (V c main_arg1) (V c main_arg2) (V c main_arg3) (V c main_arg4))
    (fun t _ => flushed0_eq V c t) cover_rows0

end Cert.KernelIdeal.Hand

end
-- ==== Proof.KernelIdeal.Arrays1.lean ====
/-
  What the blocked matrix product's output array holds after all its write-backs, over the extended reals.

  The grid is 16 × 4 × 4 in row-major order: position n has coordinates (n / 16, n / 4 % 4, n % 4). The output block
  (i, j), 512 rows by 1024 columns, is written back at the positions whose last coordinate is 3. There the accumulator
  holds the zero fill plus the four partial products of the positions with the same (i, j) and last coordinate 0, 1, 2, 3,
  each a sum over 1024 consecutive columns of the contraction; the four consecutive sums are the one sum over all 4096
  columns, and the written value adds the bias row's entry of the column.
-/
import proofs.«123255_j39943195853111_1_alg».proof.Proof.KernelIdeal.Data
import proofs.«123255_j39943195853111_1_alg».proof.Proof.KernelIdeal.Payloads
import proofs.«123255_j39943195853111_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## A sum over 4096 consecutive indices is four consecutive sums over 1024 -/

section FourBlocks

variable {M : Type*} [AddCommMonoid M]

/-- A sum over `Fin (a + b)` is the sum over the first `a` indices plus the sum over the last `b`, the indices
    written by their values. -/
theorem sum_fin_add_val (a b : ℕ) (f : Fin (a + b) → M) :
    ∑ i, f i = ∑ i : Fin a, f ⟨i.val, by omega⟩ + ∑ i : Fin b, f ⟨a + i.val, by omega⟩ := by
  rw [Fin.sum_univ_add]
  rfl

/-- The four consecutive blocks of 1024 added from the left onto zero, as the accumulator adds them. -/
theorem sum_four_blocks (f : Fin 4096 → M) :
    ∑ i, f i = (((0 + ∑ k : Fin 1024, f ⟨1024 * 0 + k.val, by omega⟩) + ∑ k : Fin 1024, f ⟨1024 * 1 + k.val, by omega⟩)
      + ∑ k : Fin 1024, f ⟨1024 * 2 + k.val, by omega⟩) + ∑ k : Fin 1024, f ⟨1024 * 3 + k.val, by omega⟩ := by
  rw [zero_add, sum_fin_add_val 3072 1024 f, sum_fin_add_val 2048 1024 (fun i => f ⟨i.val, by omega⟩),
    sum_fin_add_val 1024 1024 (fun i => f ⟨i.val, by omega⟩)]
  simp only [Nat.mul_zero, Nat.zero_add, Nat.mul_one]

end FourBlocks

/-! ## The output value at an entry, as a function of four pairs of blocks and a bias block -/

/-- Four accumulation steps from the zero fill, then the bias: when the k-th pair of blocks holds, in row `p` and row
    `q`, columns 1024·k … 1024·k + 1023 of row `r` of `X` and of row `o` of `W`, and the bias block's entry `q` is the
    bias row's entry `o`, the stored value at (p, q) is the whole contraction of row `r` with row `o` plus the bias. -/
theorem out_entry (x0 x1 x2 x3 : Vec Ideal S512x1024 .f32) (w0 w1 w2 w3 : Vec Ideal S1024x1024 .bf16)
    (b : Vec Ideal S1x1024 .f32)
    (X : Cert.Spec.SX2.Idx → EReal) (W : Cert.Spec.SW.Idx → EReal) (B : Cert.Spec.SB2.Idx → EReal)
    (p : Fin 512) (q : Fin 1024) (r : Fin 8192) (o : Fin 4096)
    (hx0 : ∀ k : Fin 1024, x0 (ix2 p k) = X (ix2 r ⟨1024 * 0 + k.val, by omega⟩))
    (hx1 : ∀ k : Fin 1024, x1 (ix2 p k) = X (ix2 r ⟨1024 * 1 + k.val, by omega⟩))
    (hx2 : ∀ k : Fin 1024, x2 (ix2 p k) = X (ix2 r ⟨1024 * 2 + k.val, by omega⟩))
    (hx3 : ∀ k : Fin 1024, x3 (ix2 p k) = X (ix2 r ⟨1024 * 3 + k.val, by omega⟩))
    (hw0 : ∀ k : Fin 1024, w0 (ix2 q k) = W (ix2 o ⟨1024 * 0 + k.val, by omega⟩))
    (hw1 : ∀ k : Fin 1024, w1 (ix2 q k) = W (ix2 o ⟨1024 * 1 + k.val, by omega⟩))
    (hw2 : ∀ k : Fin 1024, w2 (ix2 q k) = W (ix2 o ⟨1024 * 2 + k.val, by omega⟩))
    (hw3 : ∀ k : Fin 1024, w3 (ix2 q k) = W (ix2 o ⟨1024 * 3 + k.val, by omega⟩))
    (hb : b (ix2 0 q) = B (ix2 0 o)) :
    k1_pay3 (F := Ideal) (k1_pay2 x3 w3 (k1_pay2 x2 w2 (k1_pay2 x1 w1 (k1_pay2 x0 w0 (k1_pay1 (F := Ideal)))))) b (ix2 p q)
      = Cert.Spec.Out2 X W B (ix2 r o) := by
  rw [k1_pay3_apply, k1_pay2_apply, k1_pay2_apply, k1_pay2_apply, k1_pay2_apply, k1_pay1_apply]
  show _ = (∑ i : Fin 4096, X (ix2 r i) * W (ix2 o i)) + B (ix2 0 o)
  rw [sum_four_blocks (fun i : Fin 4096 => X (ix2 r i) * W (ix2 o i)), hb]
  simp only [hx0, hx1, hx2, hx3, hw0, hw1, hw2, hw3]

/-! ## The printed index maps over the grid -/

/-- The block index of each window at position `t`, on each axis, as arithmetic of the position. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The grid has 256 positions. -/
theorem N1_eq : cfg1.N = 256 := by decide +kernel

variable (V : (c : Dev nD) → (b : Ref sig .tc) → Buf (Elt Ideal) ((c : Thread nD τ).loc b))

/-! ## The input blocks read at an entry -/

/-- The first operand's block at position `t` is rows 512·(t / 16) …, columns 1024·(t % 4) … of the array. -/
theorem xblk_apply (c : Dev nD) (t : Fin cfg1.N) (p : Fin 512) (k : Fin 1024) (r : Fin 8192) (i : Fin 4096)
    (hr : r.val = 512 * (t.val / 16) + p.val) (hi : i.val = 1024 * (t.val % 4) + k.val) :
    (iblk1 V c 0 t : Vec Ideal S512x1024 .f32) (ix2 p k) = (V c main_v1 : Cert.Spec.SX2.Idx → EReal) (ix2 r i) := by
  obtain ⟨e0, e1, -⟩ := idx_facts1 t
  unfold iblk1
  rw [View.read_apply]
  show V c main_v1 _ = V c main_v1 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 1024 + 1 * k.val = i.val; rw [e1, hi]; omega

/-- The second operand's block at position `t` is rows 1024·(t / 4 % 4) …, columns 1024·(t % 4) … of the array. -/
theorem wblk_apply (c : Dev nD) (t : Fin cfg1.N) (q : Fin 1024) (k : Fin 1024) (o : Fin 4096) (i : Fin 4096)
    (ho : o.val = 1024 * (t.val / 4 % 4) + q.val) (hi : i.val = 1024 * (t.val % 4) + k.val) :
    (iblk1 V c 1 t : Vec Ideal S1024x1024 .bf16) (ix2 q k) = (V c main_v0 : Cert.Spec.SW.Idx → EReal) (ix2 o i) := by
  obtain ⟨-, -, e2, e3, -⟩ := idx_facts1 t
  unfold iblk1
  rw [View.read_apply]
  show V c main_v0 _ = V c main_v0 _
  congr 1
  funext a
  apply Fin.ext
  match a with
  | ⟨0, _⟩ => show win1_1.index t (0 : Fin 2) * 1024 + 1 * q.val = o.val; rw [e2, ho]; omega
  | ⟨1, _⟩ => show win1_1.index t (1 : Fin 2) * 1024 + 1 * k.val = i.val; rw [e3, hi]; omega

/-- The bias block at position `t` is columns 1024·(t / 4 % 4) … of the one-row array. -/
theorem bblk_apply (c : Dev nD) (t : Fin cfg1.N) (q : Fin 1024) (o : Fin 4096)
    (ho : o.val = 1024 * (t.val / 4 % 4) + q.val) :
    (iblk1 V c 2 t : Vec Ideal S1x1024 .f32) (ix2 0 q) = (V c main_v2 : Cert.Spec.SB2.Idx → EReal) (ix2 0 o) := by
  obtain ⟨-, -, -, -, e4, e5, -⟩ := idx_facts1 t
  unfold iblk1
  rw [View.read_apply]
  show V c main_v2 _ = V c main_v2 _
  congr 1
  funext a
  apply Fin.ext
  match a with
  | ⟨0, _⟩ => show win1_2.index t (0 : Fin 2) * 1 + 1 * 0 = 0; rw [e4]
  | ⟨1, _⟩ => show win1_2.index t (1 : Fin 2) * 1024 + 1 * q.val = o.val; rw [e5, ho]; omega

/-! ## The accumulator where the output is written -/

/-- At a position whose last coordinate is 3 the accumulator is four accumulation steps from the zero fill: those of the
    three positions before it and its own. -/
theorem acc1_four (c : Dev nD) (t : Fin cfg1.N) (h3 : t.val % 4 = 3) :
    acc1 V c t.val t.isLt
      = k1_pay2 (iblk1 V c 0 t) (iblk1 V c 1 t)
          (k1_pay2 (iblk1 V c 0 ⟨t.val - 1, by omega⟩) (iblk1 V c 1 ⟨t.val - 1, by omega⟩)
            (k1_pay2 (iblk1 V c 0 ⟨t.val - 1 - 1, by omega⟩) (iblk1 V c 1 ⟨t.val - 1 - 1, by omega⟩)
              (k1_pay2 (iblk1 V c 0 ⟨t.val - 1 - 1 - 1, by omega⟩) (iblk1 V c 1 ⟨t.val - 1 - 1 - 1, by omega⟩)
                (k1_pay1 (F := Ideal))))) := by
  have a3 := acc1_next V c t (by omega)
  have a2 : acc1 V c (t.val - 1) _ = _ :=
    acc1_next V c ⟨t.val - 1, by omega⟩ (by show ¬ (t.val - 1) % 4 = 0; omega)
  have a1 : acc1 V c (t.val - 1 - 1) _ = _ :=
    acc1_next V c ⟨t.val - 1 - 1, by omega⟩ (by show ¬ (t.val - 1 - 1) % 4 = 0; omega)
  have a0 : acc1 V c (t.val - 1 - 1 - 1) _ = _ :=
    acc1_first V c ⟨t.val - 1 - 1 - 1, by omega⟩ (by show (t.val - 1 - 1 - 1) % 4 = 0; omega)
  rw [a3, a2, a1, a0]

/-- What the output window's buffer holds at (p, q) after a position whose last coordinate is 3: the array function at
    the entry of the output block (t / 16, t / 4 % 4) it stands for. -/
theorem out_at (c : Dev nD) (t : Fin cfg1.N) (h3 : t.val % 4 = 3) (p : Fin 512) (q : Fin 1024) (r : Fin 8192) (o : Fin 4096)
    (hr : r.val = 512 * (t.val / 16) + p.val) (ho : o.val = 1024 * (t.val / 4 % 4) + q.val) :
    k1_pay3 (F := Ideal) (acc1 V c t.val t.isLt) (iblk1 V c 2 t) (ix2 p q)
      = Cert.Spec.Out2 (V c main_v1) (V c main_v0) (V c main_v2) (ix2 r o) := by
  rw [acc1_four V c t h3]
  refine out_entry _ _ _ _ _ _ _ _ _ _ _ _ p q r o
    (fun k => xblk_apply V c _ p k r _ ?_ ?_) (fun k => xblk_apply V c _ p k r _ ?_ ?_)
    (fun k => xblk_apply V c _ p k r _ ?_ ?_) (fun k => xblk_apply V c _ p k r _ ?_ ?_)
    (fun k => wblk_apply V c _ q k o _ ?_ ?_) (fun k => wblk_apply V c _ q k o _ ?_ ?_)
    (fun k => wblk_apply V c _ q k o _ ?_ ?_) (fun k => wblk_apply V c _ q k o _ ?_ ?_)
    (bblk_apply V c t q o ho)
  all_goals first
    | (show r.val = 512 * ((t.val - 1 - 1 - 1) / 16) + p.val; omega)
    | (show r.val = 512 * ((t.val - 1 - 1) / 16) + p.val; omega)
    | (show r.val = 512 * ((t.val - 1) / 16) + p.val; omega)
    | (show r.val = 512 * (t.val / 16) + p.val; omega)
    | (show o.val = 1024 * ((t.val - 1 - 1 - 1) / 4 % 4) + q.val; omega)
    | (show o.val = 1024 * ((t.val - 1 - 1) / 4 % 4) + q.val; omega)
    | (show o.val = 1024 * ((t.val - 1) / 4 % 4) + q.val; omega)
    | (show o.val = 1024 * (t.val / 4 % 4) + q.val; omega)
    | (show 1024 * 0 + k.val = 1024 * ((t.val - 1 - 1 - 1) % 4) + k.val; omega)
    | (show 1024 * 1 + k.val = 1024 * ((t.val - 1 - 1) % 4) + k.val; omega)
    | (show 1024 * 2 + k.val = 1024 * ((t.val - 1) % 4) + k.val; omega)
    | (show 1024 * 3 + k.val = 1024 * (t.val % 4) + k.val; omega)

/-! ## From the blocks to the array -/

/-- What a writing position writes back is its block of the array function. -/
theorem flushed1_3_eq (c : Dev nD) (t : Fin cfg1.N) (hf : (cfg1.win 3).flush t = true) :
    (dat1 (F := Ideal) V c).flushed 3 t
      = ((cfg1.win 3).blk t).view.read (Elt Ideal) (Cert.Spec.Out2 (V c main_v1) (V c main_v0) (V c main_v2)) := by
  have h3 : t.val % 4 = 3 := (flush1_3 t).mp hf
  have ht : t.val < 256 := Nat.lt_of_lt_of_eq t.isLt N1_eq
  obtain ⟨-, -, -, -, -, -, e6, e7⟩ := idx_facts1 t
  show (cfg1.win 3).cut (grid1.coords t) ((dat1 (F := Ideal) V c).after 3 t) = _
  rw [after1_3]
  have key : ∀ y : S512x1024.Idx,
      k1_pay3 (F := Ideal) (acc1 V c t.val t.isLt) (iblk1 V c 2 t) y
        = ((cfg1.win 3).blk t).view.read (Elt Ideal) (Cert.Spec.Out2 (V c main_v1) (V c main_v0) (V c main_v2)) y := by
    intro y
    obtain ⟨p, q, rfl⟩ : ∃ (p : Fin 512) (q : Fin 1024), y = ix2 p q := ⟨y 0, y 1, eq_ix2 y⟩
    rw [View.read_apply]
    show _ = Cert.Spec.Out2 (V c main_v1) (V c main_v0) (V c main_v2) (((cfg1.win 3).blk t).view.emb (ix2 p q))
    have hemb : ((cfg1.win 3).blk t).view.emb (ix2 p q)
        = ix2 (⟨512 * (t.val / 16) + p.val, by omega⟩ : Fin 8192) (⟨1024 * (t.val / 4 % 4) + q.val, by omega⟩ : Fin 4096) := by
      funext a
      apply Fin.ext
      match a with
      | ⟨0, _⟩ => show win1_3.index t (0 : Fin 2) * 512 + 1 * p.val = 512 * (t.val / 16) + p.val; rw [e6]; omega
      | ⟨1, _⟩ => show win1_3.index t (1 : Fin 2) * 1024 + 1 * q.val = 1024 * (t.val / 4 % 4) + q.val; rw [e7]; omega
    rw [hemb]
    exact out_at V c t h3 p q _ _ rfl rfl
  exact funext key

/-- An entry of the array is in position `t`'s output block iff each coordinate is in the block's range on its axis. -/
theorem mem_blk1_3 (t : Fin cfg1.N) (i : S8192x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v3).slice (win1_3.rect t)).set ↔ _
  rw [View.set_slice_whole, Rect.mem_set_unit]
  exact Iff.rfl

/-- Every entry (r, o) is in the block written back at position 16·(r / 512) + 4·(o / 1024) + 3. -/
theorem cover1_3 (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  obtain ⟨t, htv⟩ : ∃ t : Fin cfg1.N, t.val = 16 * ((i 0).val / 512) + 4 * ((i 1).val / 1024) + 3 :=
    ⟨⟨16 * ((i 0).val / 512) + 4 * ((i 1).val / 1024) + 3, by rw [N1_eq]; omega⟩, rfl⟩
  obtain ⟨-, -, -, -, -, -, e6, e7⟩ := idx_facts1 t
  refine ⟨t, (flush1_3 t).mpr (by omega), ?_⟩
  rw [mem_blk1_3]
  intro a
  match a with
  | ⟨0, _⟩ =>
    show win1_3.index t (0 : Fin 2) * 512 ≤ (i 0).val ∧ (i 0).val < win1_3.index t (0 : Fin 2) * 512 + 512
    rw [e6, htv]; omega
  | ⟨1, _⟩ =>
    show win1_3.index t (1 : Fin 2) * 1024 ≤ (i 1).val ∧ (i 1).val < win1_3.index t (1 : Fin 2) * 1024 + 1024
    rw [e7, htv]; omega

/-- The output array after all the write-backs: at every entry the whole contraction plus the bias. -/
theorem arr1_final (c : Dev nD) :
    (dat1 (F := Ideal) V c).arrAt 3 cfg1.N = Cert.Spec.Out2 (V c main_v1) (V c main_v0) (V c main_v2) :=
  (dat1 (F := Ideal) V c).arrAt_eq_of_cover 3 _ (fun t hf => flushed1_3_eq V c t hf) cover1_3

end Cert.KernelIdeal.Hand

end
-- ==== Proof.KernelIdeal.KernelValue.lean ====
/-
  What the kernel's program leaves in its result buffer, over the extended reals: the specification of the arguments.
  Walked back through the four segments: the output reshape splits region 1's array; region 1's array is the product
  with bias of the merged input, of region 0's array and of the bias laid out as a row; region 0's array is the projected
  dequantised weights of the four weight arguments, which nothing before it has changed.
-/
import proofs.«123255_j39943195853111_1_alg».proof.Proof.KernelIdeal.Run
import proofs.«123255_j39943195853111_1_alg».proof.Proof.Compose
import proofs.«123255_j39943195853111_1_alg».proof.Proof.KernelIdeal.Arrays0
import proofs.«123255_j39943195853111_1_alg».proof.Proof.KernelIdeal.Arrays1
import Idealize.ShloMosaic.Lib.StableHlo.Run

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result buffer at the end is the split of region 1's array. -/
theorem W4_v4 (c : Dev nD) :
    W4 m ρ c (Proc.devRef .tc main_v4)
      = shapeCast S4x2048x4096 (W3 m ρ c (Proc.devRef .tc main_v3)) Facts₀.shapeCasts_S8192x4096_S4x2048x4096 := by
  show StableHlo.after hostOps2 (W3 m ρ c) (Proc.devRef .tc main_v4) = _
  after_results
  rfl

/-- Region 1 finds the merged input in its first window's array, -/
theorem V2_v1 (c : Dev nD) :
    V2 m ρ c main_v1 = shapeCast S8192x4096 (m ((c : Thread nD τ).loc main_arg0)) Facts₀.shapeCasts_S4x2048x4096_S8192x4096 := by
  show StableHlo.after hostOps1 (W1 m ρ c) (Proc.devRef .tc main_v1) = _
  after_results
  exact congrArg (fun z => shapeCast S8192x4096 z Facts₀.shapeCasts_S4x2048x4096_S8192x4096) (W1_of_ne m ρ c main_arg0 (by decide))

/-- the bias laid out as a row in its third, -/
theorem V2_v2 (c : Dev nD) :
    V2 m ρ c main_v2 = shapeCast S1x4096 (m ((c : Thread nD τ).loc main_arg5)) Facts₀.shapeCasts_S4096_S1x4096 := by
  show StableHlo.after hostOps1 (W1 m ρ c) (Proc.devRef .tc main_v2) = _
  after_results
  exact congrArg (fun z => shapeCast S1x4096 z Facts₀.shapeCasts_S4096_S1x4096) (W1_of_ne m ρ c main_arg5 (by decide))

/-- and region 0's array, untouched by the reshapes, in its second. -/
theorem V2_v0 (c : Dev nD) : V2 m ρ c main_v0 = (dat0 (V0 m ρ) c).arrAt 4 cfg0.N :=
  (StableHlo.after_of_writes_sub hostOps1 _ hostOps1_writes (by decide)).trans (W1_arr m ρ c 4)

/-- The kernel's result is the specification of the arguments as launched. -/
theorem W4_result (c : Dev nD) :
    W4 m ρ c (Proc.devRef .tc main_v4)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [W4_v4, W3_arr m ρ c 3, arr1_final (V2 m ρ) c, V2_v1, V2_v2, V2_v0, arr0_final (V0 m ρ) c]
  exact Cert.Spec.split_out2_merged _ _ _ _ _ _ _ _ _

end Cert.KernelIdeal.Hand

end
-- ==== Proof.RefValue.lean ====
/-
  The reference program's result, read entry by entry, is the specification's function of the six argument arrays.

  The reference dequantises the whole weight matrix, regroups its 4096 rows into 128 blocks of 32, multiplies each block
  on the left by its own 32×32 matrix, flattens the blocks back into 4096 rows, contracts the input's last axis with the
  columns of the result, and adds the bias along the last axis. Each regrouping is the identity on the row-major
  position, so read at an entry every stage is the specification's formula: only sums and products, in the same order.
-/
import proofs.«123255_j39943195853111_1_alg».proof.Proof.Gen.ReferenceIdeal.Read
import proofs.«123255_j39943195853111_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Read
open Cert.Spec (grp blkOf rowIn rowAt Wd Wp G)

/-! ## The stages' index maps at coordinates -/

/-- The place of a column inside its group of 64. -/
def plc (i : Fin 4096) : Fin 64 := ⟨i.val % 64, Nat.mod_lt _ (by decide)⟩

/-- Row o, column i of the 4096×4096 matrix is row o, group i / 64, place i % 64 of its 4096×64×64 view … -/
theorem idx8 (o i : Fin 4096) : idx_main_v8 (ix2 o i) = ix3 o (grp i) (plc i) := by
  funext a
  refine Fin.ext ?_
  have ho := o.isLt
  have hi := i.isLt
  match a with
  | ⟨0, _⟩ => show (o.val * 4096 + i.val) / 4096 = o.val; omega
  | ⟨1, _⟩ => show (o.val * 4096 + i.val) / 64 % 64 = i.val / 64; omega
  | ⟨2, _⟩ => show (o.val * 4096 + i.val) % 64 = i.val % 64; omega

/-- … and back. -/
theorem idx1 (o i : Fin 4096) : idx_main_v1 (ix3 o (grp i) (plc i)) = ix2 o i := by
  funext a
  refine Fin.ext ?_
  have ho := o.isLt
  have hi := i.isLt
  match a with
  | ⟨0, _⟩ => show ((o.val * 64 + i.val / 64) * 64 + i.val % 64) / 4096 = o.val; omega
  | ⟨1, _⟩ => show ((o.val * 64 + i.val / 64) * 64 + i.val % 64) % 4096 = i.val; omega

/-- The offset spread over a group's places is read at (row, group) … -/
theorem idx23 (o : Fin 4096) (g l : Fin 64) : idx_main_v2 (idx_main_v3 (ix3 o g l)) = ix2 o g := by
  funext a
  match a with
  | ⟨0, _⟩ => rfl
  | ⟨1, _⟩ => rfl

/-- … and so is the scale. -/
theorem idx56 (o : Fin 4096) (g l : Fin 64) : idx_main_v5 (idx_main_v6 (ix3 o g l)) = ix2 o g := by
  funext a
  match a with
  | ⟨0, _⟩ => rfl
  | ⟨1, _⟩ => rfl

/-- Row j of block p of the 128×32×4096 view is row 32 · p + j of the matrix. -/
theorem idx9 (p : Fin 128) (j : Fin 32) (i : Fin 4096) : idx_main_v9 (ix3 p j i) = ix2 (rowAt p j) i := by
  funext a
  refine Fin.ext ?_
  have hp := p.isLt
  have hj := j.isLt
  have hi := i.isLt
  match a with
  | ⟨0, _⟩ => show ((p.val * 32 + j.val) * 4096 + i.val) / 4096 = 32 * p.val + j.val; omega
  | ⟨1, _⟩ => show ((p.val * 32 + j.val) * 4096 + i.val) % 4096 = i.val; omega

/-- Row o of the matrix is row o % 32 of block o / 32. -/
theorem idx11 (o i : Fin 4096) : idx_main_v11 (ix2 o i) = ix3 (blkOf o) (rowIn o) i := by
  funext a
  refine Fin.ext ?_
  have ho := o.isLt
  have hi := i.isLt
  match a with
  | ⟨0, _⟩ => show (o.val * 4096 + i.val) / 131072 = o.val / 32; omega
  | ⟨1, _⟩ => show (o.val * 4096 + i.val) / 4096 % 32 = o.val % 32; omega
  | ⟨2, _⟩ => show (o.val * 4096 + i.val) % 4096 = i.val; omega

/-- The batched product at (p, r, i), contraction coordinate k, reads the block matrix at (p, r, k) … -/
theorem lidx10 (p : Fin 128) (r : Fin 32) (i : Fin 4096) (k : Fin 32) : lidx_main_v10 (ix3 p r i) k = ix3 p r k := by
  funext a
  match a with
  | ⟨0, _⟩ => rfl
  | ⟨1, _⟩ => rfl
  | ⟨2, _⟩ => rfl

/-- … and the dequantised block at (p, k, i). -/
theorem ridx10 (p : Fin 128) (r : Fin 32) (i : Fin 4096) (k : Fin 32) : ridx_main_v10 (ix3 p r i) k = ix3 p k i := by
  funext a
  match a with
  | ⟨0, _⟩ => rfl
  | ⟨1, _⟩ => rfl
  | ⟨2, _⟩ => rfl

/-- The last product at entry (b, s, o), contraction coordinate k, reads the input at (b, s, k) … -/
theorem lidx12 (b : Fin 4) (s : Fin 2048) (o k : Fin 4096) : lidx_main_v12 (ix3 b s o) k = ix3 b s k := by
  funext a
  match a with
  | ⟨0, _⟩ => rfl
  | ⟨1, _⟩ => rfl
  | ⟨2, _⟩ => rfl

/-- … and the projected weights at (o, k). -/
theorem ridx12 (b : Fin 4) (s : Fin 2048) (o k : Fin 4096) : ridx_main_v12 (ix3 b s o) k = ix2 o k := by
  funext a
  match a with
  | ⟨0, _⟩ => rfl
  | ⟨1, _⟩ => rfl

/-- The bias spread over the first two axes is read at the last coordinate. -/
theorem idx1314 (b : Fin 4) (s : Fin 2048) (o : Fin 4096) : idx_main_v13 (idx_main_v14 (ix3 b s o)) = ix1 o := by
  funext a
  match a with
  | ⟨0, _⟩ => rfl

/-! ## The stages at an entry -/

/-- The dequantised weight matrix, flattened back to 4096×4096, at (o, i): (code − offset) · scale. -/
theorem deq_apply (wq : Vec Ideal S4096x4096 .i32) (scale zero : FVec Ideal S4096x64 .f32) (o i : Fin 4096) :
    val_main_v8 (F := Ideal) wq scale zero (ix2 o i) = Wd wq scale zero o i := by
  rw [val_main_v8_apply, idx8, val_main_v7_apply, val_main_v4_apply, val_main_v1_apply, idx1, val_main_v0_apply,
    val_main_v3_apply, val_main_v2_apply, idx23, val_main_v6_apply, val_main_v5_apply, idx56]
  rfl

/-- The projected weight matrix at (o, i): row o % 32 of block o / 32's matrix times the block's dequantised rows. -/
theorem proj_apply (wq : Vec Ideal S4096x4096 .i32) (scale zero : FVec Ideal S4096x64 .f32) (proj : FVec Ideal S128x32x32 .f32)
    (o i : Fin 4096) : val_main_v11 (F := Ideal) wq scale zero proj (ix2 o i) = Wp wq scale zero proj o i := by
  rw [val_main_v11_apply, idx11, val_main_v10_apply]
  unfold Cert.Spec.Wp
  refine Finset.sum_congr rfl fun j _ => ?_
  rw [lidx10, ridx10, val_main_v9_apply, idx9, deq_apply]

/-! ## The result -/

/-- The last stage of the reference is the specification (the third and fourth arrays are the scale and the offset). -/
theorem result_eq (x0 : (⟨S4x2048x4096, .f32⟩ : BufTy).Contents (Elt Ideal)) (x1 : (⟨S4096x4096, .i32⟩ : BufTy).Contents (Elt Ideal)) (x2 x3 : (⟨S4096x64, .f32⟩ : BufTy).Contents (Elt Ideal)) (x4 : (⟨S128x32x32, .f32⟩ : BufTy).Contents (Elt Ideal)) (x5 : (⟨S4096, .f32⟩ : BufTy).Contents (Elt Ideal)) :
    Cert.ReferenceIdeal.Read.val_main_v15 (F := Ideal) x0 x1 x2 x3 x4 x5 = Cert.Spec.G x0 x1 x2 x3 x4 x5 := by
  funext y
  obtain ⟨b, s, o, rfl⟩ : ∃ (b : Fin 4) (s : Fin 2048) (o : Fin 4096), y = ix3 b s o := ⟨y 0, y 1, y 2, eq_ix3 y⟩
  rw [val_main_v15_apply, val_main_v12_apply, val_main_v14_apply, val_main_v13_apply, idx1314]
  show _ = (∑ i : Fin 4096, x0 (ix3 b s i) * Wp x1 x2 x3 x4 o i) + x5 (ix1 o)
  refine congrArg₂ (· + ·) (Finset.sum_congr rfl fun k _ => ?_) rfl
  rw [lidx12, ridx12, proj_apply]

end Cert.ReferenceIdeal.RefValue

end
-- ==== Proof.lean ====
/-
  A quantised linear layer with a projection of the weights' row blocks, as two kernels — dequantise and project
  each block of 32 rows; then a matrix product accumulated over four blocks of the contraction, with the bias added at the
  last — against the plain formula. Over the extended reals both are the same function of the arguments: entry (b, s, o)
  is the sum over i of x(b, s, i) times the projected weight (o, i), plus bias(o), the projected weight (o, i) the sum
  over the 32 rows j of o's block of proj(block, o's place, j) · (code(j, i) − offset(j, i's group)) · scale(j, i's group).
  The two sides differ only in layout and in how the sum over i is grouped — four partial sums added to a zero — and
  addition of extended reals is commutative and associative, so no finiteness is used.

  The frames: each program ends on every fair execution and leaves its arguments as they were. The kernel's program is
  four segments (region, two reshapes, region, one reshape); each region's run is its body's run at every grid point,
  the second carrying its accumulator from point to point. The same proof, stated for any float values, gives the frame
  of the word-level program and of its idealisation. No operation was rewritten by the idealisation, so there is nothing
  to preserve.
-/
import proofs.«123255_j39943195853111_1_alg».proof.Defs
import proofs.«123255_j39943195853111_1_alg».proof.Proof.Gen.Kernel
import proofs.«123255_j39943195853111_1_alg».proof.Proof.Gen.KernelIdeal
import proofs.«123255_j39943195853111_1_alg».proof.Proof.Gen.ReferenceIdeal
import proofs.«123255_j39943195853111_1_alg».proof.Proof.Gen.Pre_finite_inputs
import proofs.«123255_j39943195853111_1_alg».proof.Proof.Kernel.Run
import proofs.«123255_j39943195853111_1_alg».proof.Proof.KernelIdeal.KernelValue
import proofs.«123255_j39943195853111_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Hand.frame m ρ

/-- So does its idealisation. -/
theorem frame_kernelIdeal : Cert.frame_KernelIdeal := fun m ρ _ => Cert.KernelIdeal.Hand.frame m ρ

/-- The reference is a line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the specification of the arguments in their result buffers. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.W4_result m ρ c), (h c).2⟩)
      (Cert.KernelIdeal.Hand.run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v15_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
